-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x64 : Shape := ⟨3, ![16384, 32, 64]⟩
abbrev S_ : Shape := ⟨0, ![]⟩

class Facts : Prop where
  bcast_S_S16384x32x64 : S_.BroadcastsInDim S16384x32x64 (![] : Fin 0 → Fin S16384x32x64.rank)
  reducesTo_S16384x32x64_S_d0_1_2 : S16384x32x64.ReducesTo [0, 1, 2] S_
  h_S_ : 0 < S_.numel

variable [Facts]

def fn {F : FTy → Type} [FloatOps F] (main_arg0 : FVec F S16384x32x64 .f32) : IVec S_ 1 :=
  let main_v0 : FVec F S16384x32x64 .f32 := Host.absf main_arg0
  let main_cst : FVec F S_ .f32 := constant S_ .f32 0x7F800000#32
  let main_v1 : FVec F S16384x32x64 .f32 := broadcastInDim S16384x32x64 ![] bcast_S_S16384x32x64 main_cst
  let main_v2 : IVec S16384x32x64 1 := cmpf .olt main_v0 main_v1
  let main_c : IVec S_ 1 := constantI S_ 1 1#1
  let main_v3 : IVec S_ 1 := (fun x v => Host.reduce IntOp.andi x v reducesTo_S16384x32x64_S_d0_1_2 h_S_) main_v2 main_c
  main_v3
-- ==== Kernel.lean ====
abbrev S16384x32x64 : Shape := ⟨3, ![16384, 32, 64]⟩
abbrev S16384x496 : Shape := ⟨2, ![16384, 496]⟩
abbrev S512x32x64 : Shape := ⟨3, ![512, 32, 64]⟩
abbrev S512x496 : Shape := ⟨2, ![512, 496]⟩
abbrev S512x32x32 : Shape := ⟨3, ![512, 32, 32]⟩
abbrev S512x1x31 : Shape := ⟨3, ![512, 1, 31]⟩
abbrev S512x31 : Shape := ⟨2, ![512, 31]⟩
abbrev S512x1x30 : Shape := ⟨3, ![512, 1, 30]⟩
abbrev S512x30 : Shape := ⟨2, ![512, 30]⟩
abbrev S512x1x29 : Shape := ⟨3, ![512, 1, 29]⟩
abbrev S512x29 : Shape := ⟨2, ![512, 29]⟩
abbrev S512x1x28 : Shape := ⟨3, ![512, 1, 28]⟩
abbrev S512x28 : Shape := ⟨2, ![512, 28]⟩
abbrev S512x1x27 : Shape := ⟨3, ![512, 1, 27]⟩
abbrev S512x27 : Shape := ⟨2, ![512, 27]⟩
abbrev S512x1x26 : Shape := ⟨3, ![512, 1, 26]⟩
abbrev S512x26 : Shape := ⟨2, ![512, 26]⟩
abbrev S512x1x25 : Shape := ⟨3, ![512, 1, 25]⟩
abbrev S512x25 : Shape := ⟨2, ![512, 25]⟩
abbrev S512x1x24 : Shape := ⟨3, ![512, 1, 24]⟩
abbrev S512x24 : Shape := ⟨2, ![512, 24]⟩
abbrev S512x1x23 : Shape := ⟨3, ![512, 1, 23]⟩
abbrev S512x23 : Shape := ⟨2, ![512, 23]⟩
abbrev S512x1x22 : Shape := ⟨3, ![512, 1, 22]⟩
abbrev S512x22 : Shape := ⟨2, ![512, 22]⟩
abbrev S512x1x21 : Shape := ⟨3, ![512, 1, 21]⟩
abbrev S512x21 : Shape := ⟨2, ![512, 21]⟩
abbrev S512x1x20 : Shape := ⟨3, ![512, 1, 20]⟩
abbrev S512x20 : Shape := ⟨2, ![512, 20]⟩
abbrev S512x1x19 : Shape := ⟨3, ![512, 1, 19]⟩
abbrev S512x19 : Shape := ⟨2, ![512, 19]⟩
abbrev S512x1x18 : Shape := ⟨3, ![512, 1, 18]⟩
abbrev S512x18 : Shape := ⟨2, ![512, 18]⟩
abbrev S512x1x17 : Shape := ⟨3, ![512, 1, 17]⟩
abbrev S512x17 : Shape := ⟨2, ![512, 17]⟩
abbrev S512x1x16 : Shape := ⟨3, ![512, 1, 16]⟩
abbrev S512x16 : Shape := ⟨2, ![512, 16]⟩
abbrev S512x1x15 : Shape := ⟨3, ![512, 1, 15]⟩
abbrev S512x15 : Shape := ⟨2, ![512, 15]⟩
abbrev S512x1x14 : Shape := ⟨3, ![512, 1, 14]⟩
abbrev S512x14 : Shape := ⟨2, ![512, 14]⟩
abbrev S512x1x13 : Shape := ⟨3, ![512, 1, 13]⟩
abbrev S512x13 : Shape := ⟨2, ![512, 13]⟩
abbrev S512x1x12 : Shape := ⟨3, ![512, 1, 12]⟩
abbrev S512x12 : Shape := ⟨2, ![512, 12]⟩
abbrev S512x1x11 : Shape := ⟨3, ![512, 1, 11]⟩
abbrev S512x11 : Shape := ⟨2, ![512, 11]⟩
abbrev S512x1x10 : Shape := ⟨3, ![512, 1, 10]⟩
abbrev S512x10 : Shape := ⟨2, ![512, 10]⟩
abbrev S512x1x9 : Shape := ⟨3, ![512, 1, 9]⟩
abbrev S512x9 : Shape := ⟨2, ![512, 9]⟩
abbrev S512x1x8 : Shape := ⟨3, ![512, 1, 8]⟩
abbrev S512x8 : Shape := ⟨2, ![512, 8]⟩
abbrev S512x1x7 : Shape := ⟨3, ![512, 1, 7]⟩
abbrev S512x7 : Shape := ⟨2, ![512, 7]⟩
abbrev S512x1x6 : Shape := ⟨3, ![512, 1, 6]⟩
abbrev S512x6 : Shape := ⟨2, ![512, 6]⟩
abbrev S512x1x5 : Shape := ⟨3, ![512, 1, 5]⟩
abbrev S512x5 : Shape := ⟨2, ![512, 5]⟩
abbrev S512x1x4 : Shape := ⟨3, ![512, 1, 4]⟩
abbrev S512x4 : Shape := ⟨2, ![512, 4]⟩
abbrev S512x1x3 : Shape := ⟨3, ![512, 1, 3]⟩
abbrev S512x3 : Shape := ⟨2, ![512, 3]⟩
abbrev S512x1x2 : Shape := ⟨3, ![512, 1, 2]⟩
abbrev S512x2 : Shape := ⟨2, ![512, 2]⟩
abbrev S512x1x1 : Shape := ⟨3, ![512, 1, 1]⟩
abbrev S512x1 : Shape := ⟨2, ![512, 1]⟩

abbrev nBuf : Space → Nat
  | .hbm => 2
  | .vmem => 4
  | .smem => 0
  | _ => 0

abbrev bufTy : (tb : Table) → Fin (tcTables nBuf tb) → BufTy
  | .hbm, ⟨0, _⟩ => ⟨S16384x32x64, .f32⟩
  | .hbm, ⟨1, _⟩ => ⟨S16384x496, .f32⟩
  | .local _ .vmem, ⟨0, _⟩ => ⟨S512x32x64, .f32⟩
  | .local _ .vmem, ⟨1, _⟩ => ⟨S512x32x64, .f32⟩
  | .local _ .vmem, ⟨2, _⟩ => ⟨S512x496, .f32⟩
  | .local _ .vmem, ⟨3, _⟩ => ⟨S512x496, .f32⟩
  | _, _ => ⟨S16384x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x496 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x32x64_S512x32x64_0_0_0 : ∀ a, (![0, 0, 0] : Fin 3 → Nat) a + S512x32x64.size a ≤ S512x32x64.size a
  h_S512x32x64 : 0 < S512x32x64.numel
  bitsLt_bf16_f32 : FTy.bits .bf16 < FTy.bits .f32
  slices_S512x32x32_o0_0_1_S512x1x31 : S512x32x32.Slices ![0, 0, 1] S512x1x31
  shapeCasts_S512x1x31_S512x31 : S512x1x31.ShapeCasts S512x31
  inb_S512x496_S512x31_0_0 : ∀ a, (![0, 0] : Fin 2 → Nat) a + S512x31.size a ≤ S512x496.size a
  h_S512x31 : 0 < S512x31.numel
  slices_S512x32x32_o0_1_2_S512x1x30 : S512x32x32.Slices ![0, 1, 2] S512x1x30
  shapeCasts_S512x1x30_S512x30 : S512x1x30.ShapeCasts S512x30
  inb_S512x496_S512x30_0_31 : ∀ a, (![0, 31] : Fin 2 → Nat) a + S512x30.size a ≤ S512x496.size a
  h_S512x30 : 0 < S512x30.numel
  slices_S512x32x32_o0_2_3_S512x1x29 : S512x32x32.Slices ![0, 2, 3] S512x1x29
  shapeCasts_S512x1x29_S512x29 : S512x1x29.ShapeCasts S512x29
  inb_S512x496_S512x29_0_61 : ∀ a, (![0, 61] : Fin 2 → Nat) a + S512x29.size a ≤ S512x496.size a
  h_S512x29 : 0 < S512x29.numel
  slices_S512x32x32_o0_3_4_S512x1x28 : S512x32x32.Slices ![0, 3, 4] S512x1x28
  shapeCasts_S512x1x28_S512x28 : S512x1x28.ShapeCasts S512x28
  inb_S512x496_S512x28_0_90 : ∀ a, (![0, 90] : Fin 2 → Nat) a + S512x28.size a ≤ S512x496.size a
  h_S512x28 : 0 < S512x28.numel
  slices_S512x32x32_o0_4_5_S512x1x27 : S512x32x32.Slices ![0, 4, 5] S512x1x27
  shapeCasts_S512x1x27_S512x27 : S512x1x27.ShapeCasts S512x27
  inb_S512x496_S512x27_0_118 : ∀ a, (![0, 118] : Fin 2 → Nat) a + S512x27.size a ≤ S512x496.size a
  h_S512x27 : 0 < S512x27.numel
  slices_S512x32x32_o0_5_6_S512x1x26 : S512x32x32.Slices ![0, 5, 6] S512x1x26
  shapeCasts_S512x1x26_S512x26 : S512x1x26.ShapeCasts S512x26
  inb_S512x496_S512x26_0_145 : ∀ a, (![0, 145] : Fin 2 → Nat) a + S512x26.size a ≤ S512x496.size a
  h_S512x26 : 0 < S512x26.numel
  slices_S512x32x32_o0_6_7_S512x1x25 : S512x32x32.Slices ![0, 6, 7] S512x1x25
  shapeCasts_S512x1x25_S512x25 : S512x1x25.ShapeCasts S512x25
  inb_S512x496_S512x25_0_171 : ∀ a, (![0, 171] : Fin 2 → Nat) a + S512x25.size a ≤ S512x496.size a
  h_S512x25 : 0 < S512x25.numel
  slices_S512x32x32_o0_7_8_S512x1x24 : S512x32x32.Slices ![0, 7, 8] S512x1x24
  shapeCasts_S512x1x24_S512x24 : S512x1x24.ShapeCasts S512x24
  inb_S512x496_S512x24_0_196 : ∀ a, (![0, 196] : Fin 2 → Nat) a + S512x24.size a ≤ S512x496.size a
  h_S512x24 : 0 < S512x24.numel
  slices_S512x32x32_o0_8_9_S512x1x23 : S512x32x32.Slices ![0, 8, 9] S512x1x23
  shapeCasts_S512x1x23_S512x23 : S512x1x23.ShapeCasts S512x23
  inb_S512x496_S512x23_0_220 : ∀ a, (![0, 220] : Fin 2 → Nat) a + S512x23.size a ≤ S512x496.size a
  h_S512x23 : 0 < S512x23.numel
  slices_S512x32x32_o0_9_10_S512x1x22 : S512x32x32.Slices ![0, 9, 10] S512x1x22
  shapeCasts_S512x1x22_S512x22 : S512x1x22.ShapeCasts S512x22
  inb_S512x496_S512x22_0_243 : ∀ a, (![0, 243] : Fin 2 → Nat) a + S512x22.size a ≤ S512x496.size a
  h_S512x22 : 0 < S512x22.numel
  slices_S512x32x32_o0_10_11_S512x1x21 : S512x32x32.Slices ![0, 10, 11] S512x1x21
  shapeCasts_S512x1x21_S512x21 : S512x1x21.ShapeCasts S512x21
  inb_S512x496_S512x21_0_265 : ∀ a, (![0, 265] : Fin 2 → Nat) a + S512x21.size a ≤ S512x496.size a
  h_S512x21 : 0 < S512x21.numel
  slices_S512x32x32_o0_11_12_S512x1x20 : S512x32x32.Slices ![0, 11, 12] S512x1x20
  shapeCasts_S512x1x20_S512x20 : S512x1x20.ShapeCasts S512x20
  inb_S512x496_S512x20_0_286 : ∀ a, (![0, 286] : Fin 2 → Nat) a + S512x20.size a ≤ S512x496.size a
  h_S512x20 : 0 < S512x20.numel
  slices_S512x32x32_o0_12_13_S512x1x19 : S512x32x32.Slices ![0, 12, 13] S512x1x19
  shapeCasts_S512x1x19_S512x19 : S512x1x19.ShapeCasts S512x19
  inb_S512x496_S512x19_0_306 : ∀ a, (![0, 306] : Fin 2 → Nat) a + S512x19.size a ≤ S512x496.size a
  h_S512x19 : 0 < S512x19.numel
  slices_S512x32x32_o0_13_14_S512x1x18 : S512x32x32.Slices ![0, 13, 14] S512x1x18
  shapeCasts_S512x1x18_S512x18 : S512x1x18.ShapeCasts S512x18
  inb_S512x496_S512x18_0_325 : ∀ a, (![0, 325] : Fin 2 → Nat) a + S512x18.size a ≤ S512x496.size a
  h_S512x18 : 0 < S512x18.numel
  slices_S512x32x32_o0_14_15_S512x1x17 : S512x32x32.Slices ![0, 14, 15] S512x1x17
  shapeCasts_S512x1x17_S512x17 : S512x1x17.ShapeCasts S512x17
  inb_S512x496_S512x17_0_343 : ∀ a, (![0, 343] : Fin 2 → Nat) a + S512x17.size a ≤ S512x496.size a
  h_S512x17 : 0 < S512x17.numel
  slices_S512x32x32_o0_15_16_S512x1x16 : S512x32x32.Slices ![0, 15, 16] S512x1x16
  shapeCasts_S512x1x16_S512x16 : S512x1x16.ShapeCasts S512x16
  inb_S512x496_S512x16_0_360 : ∀ a, (![0, 360] : Fin 2 → Nat) a + S512x16.size a ≤ S512x496.size a
  h_S512x16 : 0 < S512x16.numel
  slices_S512x32x32_o0_16_17_S512x1x15 : S512x32x32.Slices ![0, 16, 17] S512x1x15
  shapeCasts_S512x1x15_S512x15 : S512x1x15.ShapeCasts S512x15
  inb_S512x496_S512x15_0_376 : ∀ a, (![0, 376] : Fin 2 → Nat) a + S512x15.size a ≤ S512x496.size a
  h_S512x15 : 0 < S512x15.numel
  slices_S512x32x32_o0_17_18_S512x1x14 : S512x32x32.Slices ![0, 17, 18] S512x1x14
  shapeCasts_S512x1x14_S512x14 : S512x1x14.ShapeCasts S512x14
  inb_S512x496_S512x14_0_391 : ∀ a, (![0, 391] : Fin 2 → Nat) a + S512x14.size a ≤ S512x496.size a
  h_S512x14 : 0 < S512x14.numel
  slices_S512x32x32_o0_18_19_S512x1x13 : S512x32x32.Slices ![0, 18, 19] S512x1x13
  shapeCasts_S512x1x13_S512x13 : S512x1x13.ShapeCasts S512x13
  inb_S512x496_S512x13_0_405 : ∀ a, (![0, 405] : Fin 2 → Nat) a + S512x13.size a ≤ S512x496.size a
  h_S512x13 : 0 < S512x13.numel
  slices_S512x32x32_o0_19_20_S512x1x12 : S512x32x32.Slices ![0, 19, 20] S512x1x12
  shapeCasts_S512x1x12_S512x12 : S512x1x12.ShapeCasts S512x12
  inb_S512x496_S512x12_0_418 : ∀ a, (![0, 418] : Fin 2 → Nat) a + S512x12.size a ≤ S512x496.size a
  h_S512x12 : 0 < S512x12.numel
  slices_S512x32x32_o0_20_21_S512x1x11 : S512x32x32.Slices ![0, 20, 21] S512x1x11
  shapeCasts_S512x1x11_S512x11 : S512x1x11.ShapeCasts S512x11
  inb_S512x496_S512x11_0_430 : ∀ a, (![0, 430] : Fin 2 → Nat) a + S512x11.size a ≤ S512x496.size a
  h_S512x11 : 0 < S512x11.numel
  slices_S512x32x32_o0_21_22_S512x1x10 : S512x32x32.Slices ![0, 21, 22] S512x1x10
  shapeCasts_S512x1x10_S512x10 : S512x1x10.ShapeCasts S512x10
  inb_S512x496_S512x10_0_441 : ∀ a, (![0, 441] : Fin 2 → Nat) a + S512x10.size a ≤ S512x496.size a
  h_S512x10 : 0 < S512x10.numel
  slices_S512x32x32_o0_22_23_S512x1x9 : S512x32x32.Slices ![0, 22, 23] S512x1x9
  shapeCasts_S512x1x9_S512x9 : S512x1x9.ShapeCasts S512x9
  inb_S512x496_S512x9_0_451 : ∀ a, (![0, 451] : Fin 2 → Nat) a + S512x9.size a ≤ S512x496.size a
  h_S512x9 : 0 < S512x9.numel
  slices_S512x32x32_o0_23_24_S512x1x8 : S512x32x32.Slices ![0, 23, 24] S512x1x8
  shapeCasts_S512x1x8_S512x8 : S512x1x8.ShapeCasts S512x8
  inb_S512x496_S512x8_0_460 : ∀ a, (![0, 460] : Fin 2 → Nat) a + S512x8.size a ≤ S512x496.size a
  h_S512x8 : 0 < S512x8.numel
  slices_S512x32x32_o0_24_25_S512x1x7 : S512x32x32.Slices ![0, 24, 25] S512x1x7
  shapeCasts_S512x1x7_S512x7 : S512x1x7.ShapeCasts S512x7
  inb_S512x496_S512x7_0_468 : ∀ a, (![0, 468] : Fin 2 → Nat) a + S512x7.size a ≤ S512x496.size a
  h_S512x7 : 0 < S512x7.numel
  slices_S512x32x32_o0_25_26_S512x1x6 : S512x32x32.Slices ![0, 25, 26] S512x1x6
  shapeCasts_S512x1x6_S512x6 : S512x1x6.ShapeCasts S512x6
  inb_S512x496_S512x6_0_475 : ∀ a, (![0, 475] : Fin 2 → Nat) a + S512x6.size a ≤ S512x496.size a
  h_S512x6 : 0 < S512x6.numel
  slices_S512x32x32_o0_26_27_S512x1x5 : S512x32x32.Slices ![0, 26, 27] S512x1x5
  shapeCasts_S512x1x5_S512x5 : S512x1x5.ShapeCasts S512x5
  inb_S512x496_S512x5_0_481 : ∀ a, (![0, 481] : Fin 2 → Nat) a + S512x5.size a ≤ S512x496.size a
  h_S512x5 : 0 < S512x5.numel
  slices_S512x32x32_o0_27_28_S512x1x4 : S512x32x32.Slices ![0, 27, 28] S512x1x4
  shapeCasts_S512x1x4_S512x4 : S512x1x4.ShapeCasts S512x4
  inb_S512x496_S512x4_0_486 : ∀ a, (![0, 486] : Fin 2 → Nat) a + S512x4.size a ≤ S512x496.size a
  h_S512x4 : 0 < S512x4.numel
  slices_S512x32x32_o0_28_29_S512x1x3 : S512x32x32.Slices ![0, 28, 29] S512x1x3
  shapeCasts_S512x1x3_S512x3 : S512x1x3.ShapeCasts S512x3
  inb_S512x496_S512x3_0_490 : ∀ a, (![0, 490] : Fin 2 → Nat) a + S512x3.size a ≤ S512x496.size a
  h_S512x3 : 0 < S512x3.numel
  slices_S512x32x32_o0_29_30_S512x1x2 : S512x32x32.Slices ![0, 29, 30] S512x1x2
  shapeCasts_S512x1x2_S512x2 : S512x1x2.ShapeCasts S512x2
  inb_S512x496_S512x2_0_493 : ∀ a, (![0, 493] : Fin 2 → Nat) a + S512x2.size a ≤ S512x496.size a
  h_S512x2 : 0 < S512x2.numel
  slices_S512x32x32_o0_30_31_S512x1x1 : S512x32x32.Slices ![0, 30, 31] S512x1x1
  shapeCasts_S512x1x1_S512x1 : S512x1x1.ShapeCasts S512x1
  inb_S512x496_S512x1_0_495 : ∀ a, (![0, 495] : Fin 2 → Nat) a + S512x1.size a ≤ S512x496.size a
  h_S512x1 : 0 < S512x1.numel
  dot_S512x32x64_S512x32x64_S512x32x32_2_2_1_1_0_0_wf : DotDims.WF S512x32x64 S512x32x64 S512x32x32 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32x64.size a ≤ S16384x32x64.size a
  hwx0_0 : ∀ i : grid0.Coords, EltTy.bits .f32 = 32 ∨ (Rect.block (s := S16384x32x64) S512x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x496.size a ≤ S16384x496.size a
  hwx0_1 : ∀ i : grid0.Coords, EltTy.bits .f32 = 32 ∨ (Rect.block (s := S16384x496) S512x496.size (cc0_transform_1 i) (hinb0_1 i)).WholeWords (EltTy.packing .f32)

variable [Facts₀]

def dot_S512x32x64_S512x32x64_S512x32x32_2_2_1_1_0_0 : DotDims S512x32x64 S512x32x64 S512x32x32 where
  lhsContracting := [2]
  rhsContracting := [2]
  lhsNonContracting := [1]
  rhsNonContracting := [1]
  lhsBatch := [0]
  rhsBatch := [0]
  wf := dot_S512x32x64_S512x32x64_S512x32x32_2_2_1_1_0_0_wf

abbrev win0_0 : Pipeline.Window sig grid0 :=
  Pipeline.Window.ofSpec (Memref.whole main_arg0) S512x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x496.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x32x64 : Shape := ⟨3, ![16384, 32, 64]⟩
abbrev S16384x32x32 : Shape := ⟨3, ![16384, 32, 32]⟩
abbrev S_ : Shape := ⟨0, ![]⟩
abbrev S32x32 : Shape := ⟨2, ![32, 32]⟩
abbrev S1024 : Shape := ⟨1, ![1024]⟩
abbrev S496 : Shape := ⟨1, ![496]⟩
abbrev S1024x1 : Shape := ⟨2, ![1024, 1]⟩
abbrev S496x1 : Shape := ⟨2, ![496, 1]⟩
abbrev S496x2 : Shape := ⟨2, ![496, 2]⟩
abbrev S16384x496 : Shape := ⟨2, ![16384, 496]⟩

abbrev nBuf : Space → Nat
  | .hbm => 137
  | .vmem => 0
  | .smem => 0
  | _ => 0

abbrev hbmTy0_0 (i : Nat) : BufTy := match i % 128 with
  | 0 => ⟨S16384x32x64, .f32⟩
  | 1 => ⟨S16384x32x32, .f32⟩
  | 2 => ⟨S_, .f32⟩
  | 3 => ⟨S32x32, .f32⟩
  | 4 => ⟨S32x32, .i32⟩
  | 5 => ⟨S_, .i32⟩
  | 6 => ⟨S32x32, .i32⟩
  | 7 => ⟨S32x32, .i32⟩
  | 8 => ⟨S32x32, .i32⟩
  | 9 => ⟨S32x32, .i1⟩
  | 10 => ⟨S_, .f32⟩
  | 11 => ⟨S32x32, .f32⟩
  | 12 => ⟨S32x32, .f32⟩
  | 13 => ⟨S_, .f32⟩
  | 14 => ⟨S32x32, .f32⟩
  | 15 => ⟨S32x32, .i1⟩
  | 16 => ⟨S1024, .i1⟩
  | 17 => ⟨S1024, .i32⟩
  | 18 => ⟨S_, .i32⟩
  | 19 => ⟨S_, .i32⟩
  | 20 => ⟨S1024, .i32⟩
  | 21 => ⟨S_, .i32⟩
  | 22 => ⟨S496, .i32⟩
  | 23 => ⟨S_, .i32⟩
  | 24 => ⟨S_, .i32⟩
  | 25 => ⟨S1024, .i32⟩
  | 26 => ⟨S1024, .i32⟩
  | 27 => ⟨S_, .i32⟩
  | 28 => ⟨S1024, .i32⟩
  | 29 => ⟨S1024, .i1⟩
  | 30 => ⟨S_, .i32⟩
  | 31 => ⟨S1024, .i32⟩
  | 32 => ⟨S1024, .i32⟩
  | 33 => ⟨S1024, .i32⟩
  | 34 => ⟨S1024x1, .i32⟩
  | 35 => ⟨S_, .i32⟩
  | 36 => ⟨S1024, .i32⟩
  | 37 => ⟨S496, .i32⟩
  | 38 => ⟨S_, .i32⟩
  | 39 => ⟨S_, .i32⟩
  | 40 => ⟨S496, .i32⟩
  | 41 => ⟨S_, .i32⟩
  | 42 => ⟨S496, .i32⟩
  | 43 => ⟨S496, .i32⟩
  | 44 => ⟨S496, .i32⟩
  | 45 => ⟨S_, .i32⟩
  | 46 => ⟨S496, .i32⟩
  | 47 => ⟨S496, .i1⟩
  | 48 => ⟨S496, .i32⟩
  | 49 => ⟨S496, .i32⟩
  | 50 => ⟨S_, .i32⟩
  | 51 => ⟨S496, .i32⟩
  | 52 => ⟨S496, .i1⟩
  | 53 => ⟨S496, .i1⟩
  | 54 => ⟨S_, .i32⟩
  | 55 => ⟨S496, .i32⟩
  | 56 => ⟨S496, .i32⟩
  | 57 => ⟨S496, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S496, .i32⟩
  | 65 => ⟨S496, .i32⟩
  | 66 => ⟨S_, .i32⟩
  | 67 => ⟨S496, .i32⟩
  | 68 => ⟨S496, .i1⟩
  | 69 => ⟨S_, .i32⟩
  | 70 => ⟨S496, .i32⟩
  | 71 => ⟨S496, .i1⟩
  | 72 => ⟨S_, .i32⟩
  | 73 => ⟨S_, .i1⟩
  | 74 => ⟨S496, .i1⟩
  | 75 => ⟨S496, .i1⟩
  | 76 => ⟨S496, .i1⟩
  | 77 => ⟨S496, .i32⟩
  | 78 => ⟨S496, .i32⟩
  | 79 => ⟨S496, .i32⟩
  | 80 => ⟨S_, .i32⟩
  | 81 => ⟨S496, .i32⟩
  | 82 => ⟨S496, .i32⟩
  | 83 => ⟨S496, .i32⟩
  | 84 => ⟨S_, .i32⟩
  | 85 => ⟨S496, .i32⟩
  | 86 => ⟨S496, .i1⟩
  | 87 => ⟨S496, .i32⟩
  | 88 => ⟨S496, .i32⟩
  | 89 => ⟨S_, .i32⟩
  | 90 => ⟨S496, .i32⟩
  | 91 => ⟨S496, .i1⟩
  | 92 => ⟨S496, .i1⟩
  | 93 => ⟨S_, .i32⟩
  | 94 => ⟨S496, .i32⟩
  | 95 => ⟨S496, .i32⟩
  | 96 => ⟨S496, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S496, .i32⟩
  | 104 => ⟨S496, .i32⟩
  | 105 => ⟨S_, .i32⟩
  | 106 => ⟨S496, .i32⟩
  | 107 => ⟨S496, .i1⟩
  | 108 => ⟨S_, .i32⟩
  | 109 => ⟨S496, .i32⟩
  | 110 => ⟨S496, .i1⟩
  | 111 => ⟨S_, .i32⟩
  | 112 => ⟨S_, .i1⟩
  | 113 => ⟨S496, .i1⟩
  | 114 => ⟨S496, .i1⟩
  | 115 => ⟨S496, .i1⟩
  | 116 => ⟨S496, .i32⟩
  | 117 => ⟨S496, .i32⟩
  | 118 => ⟨S496, .i32⟩
  | 119 => ⟨S_, .i32⟩
  | 120 => ⟨S496, .i32⟩
  | 121 => ⟨S496, .i1⟩
  | 122 => ⟨S_, .i32⟩
  | 123 => ⟨S496, .i32⟩
  | 124 => ⟨S496, .i32⟩
  | 125 => ⟨S496, .i32⟩
  | 126 => ⟨S_, .i32⟩
  | 127 => ⟨S496, .i32⟩
  | _ => ⟨S16384x32x64, .f32⟩

abbrev hbmTy0_1 (i : Nat) : BufTy := match i % 128 with
  | 0 => ⟨S496, .i1⟩
  | 1 => ⟨S_, .i32⟩
  | 2 => ⟨S496, .i32⟩
  | 3 => ⟨S496, .i32⟩
  | 4 => ⟨S496, .i32⟩
  | 5 => ⟨S496x1, .i32⟩
  | 6 => ⟨S496x1, .i32⟩
  | 7 => ⟨S496x2, .i32⟩
  | 8 => ⟨S16384x496, .f32⟩
  | _ => ⟨S16384x32x64, .f32⟩

abbrev hbmTy (i : Nat) : BufTy := match i / 128 with
  | 0 => hbmTy0_0 i
  | 1 => hbmTy0_1 i
  | _ => ⟨S16384x32x64, .f32⟩

abbrev bufTy : (tb : Table) → Fin (tcTables nBuf tb) → BufTy
  | .hbm, ⟨i, _⟩ => hbmTy i
  | _, _ => ⟨S16384x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  shapeCasts_S32x32_S1024 : S32x32.ShapeCasts S1024
  natLt_1_32 : 1 < 32
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S496 : S_.BroadcastsInDim S496 (![] : Fin 0 → Fin S496.rank)
  bcast_S_S1024 : S_.BroadcastsInDim S1024 (![] : Fin 0 → Fin S1024.rank)
  bcast_S1024_S1024x1_0 : S1024.BroadcastsInDim S1024x1 (![0] : Fin 1 → Fin S1024x1.rank)
  reduceWindows_S496_S496_w496s1p495_0 : S496.ReduceWindows (![496] : Fin 1 → Nat) ![1] ![495] ![0] S496
  bcast_S496_S496x1_0 : S496.BroadcastsInDim S496x1 (![0] : Fin 1 → Fin S496x1.rank)
  concatenates_S496x1_S496x1_S496x2_d1 : Shape.Concatenates [S496x1, S496x1] S496x2 1
  dot_S16384x32x64_S16384x32x64_S16384x32x32_2_2_1_1_0_0_wf : DotDims.WF S16384x32x64 S16384x32x64 S16384x32x32 [2] [2] [1] [1] [0] [0]
  scatter_S496_S1024x1_S1024_n_0_0_1_wf : ScatterDims.WF S496 S1024x1 S1024 [] [0] [0] 1
  gather_S16384x32x32_S496x2_S16384x496_0_12_n_n_12_1_1638411_wf : GatherDims.WF S16384x32x32 S496x2 S16384x496 [0] [1, 2] [] [1, 2] [] 1 ![16384, 1, 1]

variable [Facts₀]

def dot_S16384x32x64_S16384x32x64_S16384x32x32_2_2_1_1_0_0 : DotDims S16384x32x64 S16384x32x64 S16384x32x32 where
  lhsContracting := [2]
  rhsContracting := [2]
  lhsNonContracting := [1]
  rhsNonContracting := [1]
  lhsBatch := [0]
  rhsBatch := [0]
  wf := dot_S16384x32x64_S16384x32x64_S16384x32x32_2_2_1_1_0_0_wf
def scatter_S496_S1024x1_S1024_n_0_0_1 : ScatterDims S496 S1024x1 S1024 where
  updateWindowDims := []
  insertedWindowDims := [0]
  scatterDimsToOperandDims := [0]
  indexVectorDim := 1
  wf := scatter_S496_S1024x1_S1024_n_0_0_1_wf
def gather_S16384x32x32_S496x2_S16384x496_0_12_n_n_12_1_1638411 : GatherDims S16384x32x32 S496x2 S16384x496 where
  offsetDims := [0]
  collapsedSliceDims := [1, 2]
  operandBatchingDims := []
  startIndicesBatchingDims := []
  startIndexMap := [1, 2]
  indexVectorDim := 1
  sliceSizes := ![16384, 1, 1]
  wf := gather_S16384x32x32_S496x2_S16384x496_0_12_n_n_12_1_1638411_wf

class Facts : Prop extends Facts₀ where

variable [Facts]
-- ==== Proof.PairOrder.lean ====
/-
  The strict upper triangle of a 32 × 32 matrix, listed row by row: the pairs (i, j) with i < j < 32 in the order
  (0,1), (0,2), …, (0,31), (1,2), …, (30,31) — 496 of them. Row i holds the 31 − i pairs (i, i+1), …, (i, 31) and starts
  at position 31 + 30 + … + (32 − i) = i (63 − i) / 2. Here: that start, the row and the column of the pair at a
  position, and that the two descriptions — "position p holds (rowOf p, colOf p)" and "the pair (i, j) sits at
  position rowStart i + (j − i − 1)" — are inverse to each other, by running through the cases.
-/
import Mathlib.Data.List.Basic
import Mathlib.Data.Fin.Basic

namespace Cert.PairOrder

/-- The number of pairs in the rows before row `i`: 31 + 30 + … + (32 − i). -/
def rowStart (i : Nat) : Nat := i * (63 - i) / 2

/-- The row of the pair at position `p`: how many rows end at or before `p`. -/
def rowOf (p : Nat) : Nat := (List.range 31).countP fun i => decide (rowStart (i + 1) ≤ p)

/-- The column of the pair at position `p`: row `i` starts with column `i + 1`. -/
def colOf (p : Nat) : Nat := p - rowStart (rowOf p) + rowOf p + 1

/-- Every position holds a pair of the strict upper triangle. -/
theorem rowOf_lt_colOf : ∀ p : Fin 496, rowOf p.val < colOf p.val ∧ colOf p.val < 32 := by decide

/-- The pair `(i, j)`, `i < j`, sits at position `rowStart i + (j − i − 1)`. -/
theorem pair_at : ∀ i j : Fin 32, i.val < j.val →
    rowStart i.val + (j.val - i.val - 1) < 496 ∧ rowOf (rowStart i.val + (j.val - i.val - 1)) = i.val
      ∧ colOf (rowStart i.val + (j.val - i.val - 1)) = j.val := by decide

/-- A position is the position of its own pair. -/
theorem pos_eq : ∀ p : Fin 496, rowStart (rowOf p.val) + (colOf p.val - rowOf p.val - 1) = p.val := by decide

end Cert.PairOrder
-- ==== Proof.PairFin.lean ====
/-
  The pair at a position of the strict upper triangle as two row / column numbers below 32, and the array operation
  both programs compute: out of a stack of 32 × 32 matrices, per matrix, the 496 entries above the diagonal in row-major
  order — entry p of matrix b is X[b, rowOf p, colOf p].
-/
import proofs.«140735_j6227702579222_2_alg».proof.Proof.PairOrder
import Idealize.ShloMosaic.Lib.ValueIdx

namespace Cert.PairOrder

open Idealize.ShloMosaic Idealize.ShloMosaic.ValueIdx

/-- The row of the pair at position `p`, as a row number of the matrix. -/
def rowFin (p : Fin 496) : Fin 32 := ⟨rowOf p.val, by have := rowOf_lt_colOf p; omega⟩

/-- The column of the pair at position `p`, as a column number of the matrix. -/
def colFin (p : Fin 496) : Fin 32 := ⟨colOf p.val, (rowOf_lt_colOf p).2⟩

/-- Row `i` starts at `rowStart i`, and its `d`-th pair is `(i, i + 1 + d)`. -/
theorem row_col_of (i d : Nat) (h : i + 1 + d < 32) :
    rowStart i + d < 496 ∧ rowOf (rowStart i + d) = i ∧ colOf (rowStart i + d) = i + 1 + d := by
  have key := pair_at ⟨i, by omega⟩ ⟨i + 1 + d, h⟩ (by show i < i + 1 + d; omega)
  have e : i + 1 + d - i - 1 = d := by omega
  simp only [e] at key
  exact key

/-- The strict upper triangles of a stack of `n` matrices, each listed row by row. -/
def upperTri {α : Type} {n : Nat} (X : (⟨3, ![n, 32, 32]⟩ : Shape).Idx → α) : (⟨2, ![n, 496]⟩ : Shape).Idx → α :=
  fun y => X (ix3 (show Fin n from y 0) (rowFin (show Fin 496 from y 1)) (colFin (show Fin 496 from y 1)))

theorem upperTri_apply {α : Type} {n : Nat} (X : (⟨3, ![n, 32, 32]⟩ : Shape).Idx → α) (b : Fin n) (p : Fin 496) :
    upperTri X (ix2 b p) = X (ix3 b (rowFin p) (colFin p)) := rfl

end Cert.PairOrder
-- ==== Proof.KernelBlock.lean ====
/-
  What one grid point leaves in the output block. The body multiplies the 512 × 32 × 64 input block with itself into 512
  Gram matrices and stores, for each row i = 0 … 30 of the matrix, the 31 − i entries to the right of the diagonal —
  columns i + 1 … 31 — into the output block's columns rowStart i … rowStart i + 30 − i. Each of these 31 stores is a
  block of ONE function of the output index: entry (r, p) of the output block is the Gram matrix r at the pair that sits
  at position p of the strict upper triangle. So the 31 pieces, which tile the 512 × 496 block, read back as that function.
-/
import proofs.«140735_j6227702579222_2_alg».proof.Proof.Gen.KernelIdeal.Frame
import proofs.«140735_j6227702579222_2_alg».proof.Proof.PairFin
import Idealize.ShloMosaic.Lib.Pipeline.Value

set_option maxRecDepth 16384

noncomputable section

namespace Cert.KernelIdeal.KernelBlock

open Cert.KernelIdeal Cert.KernelIdeal.Gen Idealize.ShloMosaic Idealize.ShloMosaic.TcCoe Idealize.SL.Sem
open Idealize.ShloMosaic.Tactic Idealize.ShloMosaic.ValueIdx Cert.PairOrder

variable {F : FTy → Type} [FloatOps F]

/-- The offsets of a rectangle that is the whole rank-3 block. -/
theorem hz3 : (![0, 0, 0] : Fin 3 → ℕ) = fun _ => 0 := by funext a; fin_cases a <;> rfl

/-- ONE store's payload is a block of the upper-triangle function: the slab `X[:, i0, c0 : c0 + w]` with `c0 = i0 + 1`,
    squeezed to 512 × w and placed at columns `off = rowStart i0` onwards, holds at local index `(r, d)` the entry
    `X[r, i0, i0 + 1 + d]`, and position `rowStart i0 + d` of the triangle is the pair `(i0, i0 + 1 + d)`. -/
theorem slab_eq {α : Type} {w : Nat} (i0 c0 off : Nat) (X : (⟨3, ![512, 32, 32]⟩ : Shape).Idx → α)
    (hs : (⟨3, ![512, 32, 32]⟩ : Shape).Slices ![0, i0, c0] ⟨3, ![512, 1, w]⟩)
    (hc : (⟨3, ![512, 1, w]⟩ : Shape).ShapeCasts ⟨2, ![512, w]⟩)
    (inb : ∀ a, (![0, off] : Fin 2 → ℕ) a + (![512, w] : Fin 2 → ℕ) a ≤ (⟨2, ![512, 496]⟩ : Shape).size a)
    (hc0 : c0 = i0 + 1) (hoff : off = rowStart i0) (hw : i0 + 1 + w ≤ 32)
    (x : (Rect.unit (s := ⟨2, ![512, 496]⟩) ![0, off] ![512, w] inb).shape.Idx) :
    shapeCast ⟨2, ![512, w]⟩ (extractStridedSlice ⟨3, ![512, 1, w]⟩ ![0, i0, c0] X hs) hc x
      = upperTri X ((Rect.unit ![0, off] ![512, w] inb).emb x) := by
  subst hc0 hoff
  obtain ⟨r, d, rfl⟩ : ∃ (r : Fin 512) (d : Fin w), x = ix2 r d := ⟨x 0, x 1, eq_ix2 x⟩
  have hd := d.isLt
  obtain ⟨h496, hrow, hcol⟩ := row_col_of i0 d.val (by omega)
  rw [shapeCast_apply _ hc (ix2 r d) (ix3 r (0 : Fin 1) d) (by
    rw [Shape.rowMajor_val_three, Shape.rowMajor_val_two]
    show (r.val * 1 + 0) * w + d.val = r.val * w + d.val
    rw [Nat.mul_one, Nat.add_zero])]
  rw [extractStridedSlice_apply _ _ hs _ (ix3 r ⟨i0, by omega⟩ ⟨i0 + 1 + d.val, by omega⟩) (fun a => by
    match a with
    | ⟨0, _⟩ => simp
    | ⟨1, _⟩ => simp
    | ⟨2, _⟩ => simp)]
  unfold upperTri
  refine congrArg X (funext fun a => Fin.ext ?_)
  match a with
  | ⟨0, _⟩ => simp [rowFin, colFin]
  | ⟨1, _⟩ => simp [rowFin, colFin, hrow]
  | ⟨2, _⟩ => simp [rowFin, colFin, hcol]

/-- The output block after the body, on any staging memrefs, from the input block `x0`: the strict upper triangles of the
    block's 512 Gram matrices. The run's 31 pieces cover the block (the generated cover), and each is a block of that one
    function (`slab_eq`, with the row, the first column and the offset read off the piece). -/
theorem out_A (c : Dev nD) (i : grid0.Coords) (a1 : Memref sig .tc .vmem S512x32x64 .f32) (h1 : a1.IsWhole)
    (a2 : Memref sig .tc .vmem S512x496 .f32) (h2 : a2.IsWhole) (x0 : Vec F S512x32x64 .f32) :
    out0_A_1 c i a1 h1 a2 h2 x0 = upperTri (k0_pay3 x0) := by
  unfold out0_A_1
  rw [View.read_writes_eq_canon _ _ _ (cover0_A_1 c i a1 h1 a2 h2 x0)]
  funext y
  refine View.canon_apply_of_pieces (upperTri (k0_pay3 x0)) _ ?_ y (cover0_A_1 c i a1 h1 a2 h2 x0 y)
  unfold kernelRun0_A
  dsimp only
  sl_unfold_words
  simp only [View.readAt_eq_ld, h1.read_unread, View.ld_unit_zero (S := S512x32x64) hz3]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact fun x => slab_eq _ _ _ _ (by decide) (by decide) (by decide) rfl (by decide) (by decide) x

end Cert.KernelIdeal.KernelBlock

end
-- ==== Proof.KernelGram.lean ====
/-
  The batched Gram matrix the kernel's body computes, read at one entry: over the extended reals the matrix unit's
  product of the block with itself — rounding the operands to bf16 first is the identity there, and the accumulator
  starts at zero — is, at (r, i, j), the sum over the 64 embedding coordinates e of x[r, i, e] · x[r, j, e].
-/
import proofs.«140735_j6227702579222_2_alg».proof.Proof.Gen.KernelIdeal.Skeleton
import Idealize.ShloMosaic.Lib.ValueIdx
import Idealize.ShloMosaic.PureOps.Ideal.Laws

noncomputable section

open scoped BigOperators

namespace Cert.KernelIdeal.KernelGram

open Cert.KernelIdeal Cert.KernelIdeal.Gen Idealize.ShloMosaic Idealize.ShloMosaic.ValueIdx

/-- The product's dimension numbers: batch axis 0, free axis 1 on both sides, contracted axis 2 on both sides. -/
local notation "D" => dot_S512x32x64_S512x32x64_S512x32x32_2_2_1_1_0_0

/-! The operand indices of the product at a result index `i = (r, i, j)` and a contraction index `q`, axis by axis:
    the left operand is read at `(r, i, q)`, the right one at `(r, j, q)`. -/

theorem lhs_0 (i : S512x32x32.Idx) (q : (D).contr.Idx) : ((D).lhsIdx i q 0).val = (i 0).val := by
  unfold DotDims.lhsIdx
  rw [dif_pos (show (0 : Fin S512x32x64.rank) ∈ (D).lhsBatch by decide)]
  rfl
theorem lhs_1 (i : S512x32x32.Idx) (q : (D).contr.Idx) : ((D).lhsIdx i q 1).val = (i 1).val := by
  unfold DotDims.lhsIdx
  rw [dif_neg (show ¬(1 : Fin S512x32x64.rank) ∈ (D).lhsBatch by decide), dif_pos (show (1 : Fin S512x32x64.rank) ∈ (D).lhsNonContracting by decide)]
  rfl
theorem lhs_2 (i : S512x32x32.Idx) (q : (D).contr.Idx) : ((D).lhsIdx i q 2).val = (q ⟨0, by decide⟩).val :=
  (D).lhsIdx_val_of_single rfl i q
theorem rhs_0 (i : S512x32x32.Idx) (q : (D).contr.Idx) : ((D).rhsIdx i q 0).val = (i 0).val := by
  unfold DotDims.rhsIdx
  rw [dif_pos (show (0 : Fin S512x32x64.rank) ∈ (D).rhsBatch by decide)]
  rfl
theorem rhs_1 (i : S512x32x32.Idx) (q : (D).contr.Idx) : ((D).rhsIdx i q 1).val = (i 2).val := by
  unfold DotDims.rhsIdx
  rw [dif_neg (show ¬(1 : Fin S512x32x64.rank) ∈ (D).rhsBatch by decide), dif_pos (show (1 : Fin S512x32x64.rank) ∈ (D).rhsNonContracting by decide)]
  rfl
theorem rhs_2 (i : S512x32x32.Idx) (q : (D).contr.Idx) : ((D).rhsIdx i q 2).val = (q ⟨0, by decide⟩).val :=
  (D).rhsIdx_val_of_single rfl i q

/-- Entry `(r, i, j)` of the body's Gram matrix is `∑ e, x[r, i, e] · x[r, j, e]`. -/
theorem gram_apply (x0 : Vec Ideal S512x32x64 .f32) (r : Fin 512) (i j : Fin 32) :
    k0_pay3 (F := Ideal) x0 (ix3 r i j) = ∑ e : Fin 64, x0 (ix3 r i e) * x0 (ix3 r j e) := by
  unfold k0_pay3
  simp only [matmul]
  rw [Ideal.matmul_constant_zero_apply, ← Equiv.sum_comp (contrEquiv1 (D) 64 rfl rfl).symm]
  refine Finset.sum_congr rfl fun k _ => ?_
  have hk := contrEquiv1_symm_val (D) 64 rfl rfl k
  have el : (D).lhsIdx (ix3 r i j) ((contrEquiv1 (D) 64 rfl rfl).symm k) = ix3 r i k := funext fun a => Fin.ext (by
    match a with
    | ⟨0, _⟩ => exact lhs_0 _ _
    | ⟨1, _⟩ => exact lhs_1 _ _
    | ⟨2, _⟩ => exact (lhs_2 _ _).trans hk)
  have er : (D).rhsIdx (ix3 r i j) ((contrEquiv1 (D) 64 rfl rfl).symm k) = ix3 r j k := funext fun a => Fin.ext (by
    match a with
    | ⟨0, _⟩ => exact rhs_0 _ _
    | ⟨1, _⟩ => exact rhs_1 _ _
    | ⟨2, _⟩ => exact (rhs_2 _ _).trans hk)
  rw [el, er]
  rfl

end Cert.KernelIdeal.KernelGram

end
-- ==== Proof.GramSpec.lean ====
/-
  The function both programs compute, index by index over the extended reals: for a stack x of n matrices of 32 rows
  (fields) by 64 columns (embedding coordinates), the Gram matrix of each — entry (i, j) is the inner product of rows i
  and j — and, out of it, the 496 inner products of the pairs i < j in row-major order.
-/
import proofs.«140735_j6227702579222_2_alg».proof.Proof.PairFin

noncomputable section

open scoped BigOperators

namespace Cert.PairOrder

open Idealize.ShloMosaic Idealize.ShloMosaic.ValueIdx

/-- The Gram matrices of a stack: entry `(b, i, j)` is `∑ e, x[b, i, e] · x[b, j, e]`. -/
def gramOf {n : Nat} (x : (⟨3, ![n, 32, 64]⟩ : Shape).Idx → EReal) : (⟨3, ![n, 32, 32]⟩ : Shape).Idx → EReal :=
  fun q => ∑ e : Fin 64, x (ix3 (show Fin n from q 0) (show Fin 32 from q 1) e) * x (ix3 (show Fin n from q 0) (show Fin 32 from q 2) e)

theorem gramOf_apply {n : Nat} (x : (⟨3, ![n, 32, 64]⟩ : Shape).Idx → EReal) (b : Fin n) (i j : Fin 32) :
    gramOf x (ix3 b i j) = ∑ e : Fin 64, x (ix3 b i e) * x (ix3 b j e) := rfl

/-- The inner products of the pairs of fields, pair `p` of matrix `b` at `(b, p)`. -/
def pairProducts {n : Nat} (x : (⟨3, ![n, 32, 64]⟩ : Shape).Idx → EReal) : (⟨2, ![n, 496]⟩ : Shape).Idx → EReal :=
  upperTri (gramOf x)

theorem pairProducts_apply {n : Nat} (x : (⟨3, ![n, 32, 64]⟩ : Shape).Idx → EReal) (b : Fin n) (p : Fin 496) :
    pairProducts x (ix2 b p) = ∑ e : Fin 64, x (ix3 b (rowFin p) e) * x (ix3 b (colFin p) e) := rfl

end Cert.PairOrder

end
-- ==== Proof.KernelValue.lean ====
/-
  The kernel's result array as one function of its argument. Grid point t stages rows 512 t … 512 t + 511 of the argument
  (all 32 fields, all 64 coordinates), the body leaves the pairs' inner products of those rows in the output block, and
  the block is written back to rows 512 t … 512 t + 511 of the result (all 496 columns). The 32 blocks cover the result,
  so the result array is `pairProducts` of the argument.
-/
import proofs.«140735_j6227702579222_2_alg».proof.Proof.Gen.KernelIdeal.Value
import proofs.«140735_j6227702579222_2_alg».proof.Proof.KernelBlock
import proofs.«140735_j6227702579222_2_alg».proof.Proof.KernelGram
import proofs.«140735_j6227702579222_2_alg».proof.Proof.GramSpec

set_option maxRecDepth 16384

noncomputable section

open scoped BigOperators

namespace Cert.KernelIdeal.KernelValue

open Cert.KernelIdeal Cert.KernelIdeal.Gen Cert.KernelIdeal.Value Idealize.ShloMosaic Idealize.ShloMosaic.TcCoe Idealize.SL.Sem
open Idealize.ShloMosaic.ValueIdx Cert.PairOrder
open Idealize.ShloMosaic.Pipeline (Dat)

variable (m : (ℓ : Loc nD τ sig) → Buf (Elt Ideal) ℓ) (ρ : Dev nD → PrngReg)

/-- The printed index maps over the 32 grid points: both windows move along axis 0 with the point and stay at block 0 on
    every other axis. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The body's result on a block that is rows `512 T …` of a stack `X`: the pairs' inner products of those rows. -/
theorem block_eq (x0 : Vec Ideal S512x32x64 .f32) (X : S16384x32x64.Idx → EReal) (T : Nat) (hT : T < 32)
    (hx : ∀ (r : Fin 512) (i : Fin 32) (e : Fin 64), x0 (ix3 r i e) = X (ix3 ⟨512 * T + r.val, by omega⟩ i e))
    (r : Fin 512) (p : Fin 496) :
    upperTri (k0_pay3 (F := Ideal) x0) (ix2 r p) = pairProducts X (ix2 ⟨512 * T + r.val, by omega⟩ p) := by
  rw [upperTri_apply, pairProducts_apply, KernelGram.gram_apply]
  exact Finset.sum_congr rfl fun e _ => by rw [hx, hx]

/-- The same at any index of the block and the index of the result array it is written to. -/
theorem point_eq (x0 : Vec Ideal S512x32x64 .f32) (X : S16384x32x64.Idx → EReal) (T : Nat) (hT : T < 32)
    (hx : ∀ (r : Fin 512) (i : Fin 32) (e : Fin 64), x0 (ix3 r i e) = X (ix3 ⟨512 * T + r.val, by omega⟩ i e))
    (y : S512x496.Idx) (k : S16384x496.Idx) (hk0 : (k 0).val = 512 * T + (y 0).val) (hk1 : (k 1).val = (y 1).val) :
    upperTri (k0_pay3 (F := Ideal) x0) y = pairProducts X k := by
  obtain ⟨r, p, rfl⟩ : ∃ (r : Fin 512) (p : Fin 496), y = ix2 r p := ⟨y 0, y 1, eq_ix2 y⟩
  have hk : k = ix2 ⟨512 * T + r.val, by omega⟩ p := funext fun a => Fin.ext (by
    match a with
    | ⟨0, _⟩ => exact hk0
    | ⟨1, _⟩ => exact hk1)
  rw [hk]
  exact block_eq x0 X T hT hx r p

/-- The input window's block at point `t` is rows `512 t … 512 t + 511` of the argument. -/
theorem iblk_apply (c : Dev nD) (t : Fin cfg0.N) (x : S512x32x64.Idx) (k : S16384x32x64.Idx)
    (hk0 : (k 0).val = 512 * t.val + (x 0).val) (hk1 : (k 1).val = (x 1).val) (hk2 : (k 2).val = (x 2).val) :
    (iblk m c 0 t : Vec Ideal S512x32x64 .f32) x = (m ((c : Thread nD τ).loc main_arg0) : S16384x32x64.Idx → EReal) k := by
  obtain ⟨e0, e1, e2, -, -⟩ := idx_facts t
  unfold iblk
  rw [View.read_apply]
  show V m c main_arg0 _ = m (c.tc.loc main_arg0) _
  unfold V
  refine congrArg _ (funext fun a => Fin.ext ?_)
  match a with
  | ⟨0, _⟩ => show win0_0.index t 0 * 512 + 1 * (x 0).val = (k 0).val; rw [e0, hk0]; omega
  | ⟨1, _⟩ => show win0_0.index t 1 * 32 + 1 * (x 1).val = (k 1).val; rw [e1, hk1]; omega
  | ⟨2, _⟩ => show win0_0.index t 2 * 64 + 1 * (x 2).val = (k 2).val; rw [e2, hk2]; omega

/-- WHAT POINT `t` WRITES BACK is block `t` of the pairs' inner products of the argument array. -/
theorem flushed_eq (c : Dev nD) (t : Fin cfg0.N) :
    (dats m 0 c).flushed 1 t
      = ((cfg0.win 1).blk t).view.read (Elt Ideal) (pairProducts (m ((c : Thread nD τ).loc main_arg0))) := by
  rw [flushed1_A, KernelBlock.out_A]
  obtain ⟨e0, e1, e2, e3, e4⟩ := idx_facts t
  have ht : t.val < 32 := t.isLt
  funext y
  show upperTri (k0_pay3 (iblk m c 0 t)) y = pairProducts (m ((c : Thread nD τ).loc main_arg0)) (((cfg0.win 1).blk t).view.emb y)
  refine point_eq (iblk m c 0 t) _ t.val ht (fun r i e => iblk_apply m c t _ _ rfl rfl rfl) y _ ?_ ?_
  · show win0_1.index t 0 * 512 + 1 * (y 0).val = 512 * t.val + (y 0).val
    rw [e3]; omega
  · show win0_1.index t 1 * 496 + 1 * (y 1).val = (y 1).val
    rw [e4]; omega

/-- An index of the result array is in point `t`'s block iff each coordinate is in the block's range on its axis. -/
theorem mem_blk (t : Fin cfg0.N) (i : S16384x496.Idx) :
    i ∈ ((cfg0.win 1).blk t).view.set ↔ ∀ a : Fin 2, win0_1.index t a * S512x496.size a ≤ (i a).val
      ∧ (i a).val < win0_1.index t a * S512x496.size a + S512x496.size a := by
  show i ∈ ((View.whole main_v0).slice (win0_1.rect t)).set ↔ _
  rw [View.set_slice_whole, Rect.mem_set_unit]
  exact Iff.rfl

/-- Every block of rows of the result is some point's. -/
theorem idx_onto : ∀ q : Fin 32, ∃ t : Fin cfg0.N, win0_1.index t = ![q.val, 0] :=
  (by decide +kernel : ∀ q : Fin 32, ∃ t : Fin grid0.N, win0_1.index t = ![q.val, 0])

/-- THE RESULT ARRAY after the run: the pairs' inner products of the argument array — row `b` lies in the block of
    point `b / 512`, and every point writes its block back. -/
theorem final (c : Dev nD) :
    (dats m 0 c).arrAt 1 cfg0.N = pairProducts (m ((c : Thread nD τ).loc main_arg0)) :=
  (dats m 0 c).arrAt_eq_of_cover 1 (pairProducts (m ((c : Thread nD τ).loc main_arg0))) (fun t _ => flushed_eq m c t) fun i => by
    have hi0 : (i 0 : Nat) < 16384 := (i 0).isLt
    have hi1 : (i 1 : Nat) < 496 := (i 1).isLt
    obtain ⟨t, ht⟩ := idx_onto ⟨(i 0 : Nat) / 512, by omega⟩
    have q0 : win0_1.index t (0 : Fin 2) = (i 0 : Nat) / 512 := congrFun ht 0
    have q1 : win0_1.index t (1 : Fin 2) = 0 := congrFun ht 1
    refine ⟨t, flush0_1 t, ?_⟩
    rw [mem_blk]
    intro a
    match a with
    | ⟨0, _⟩ => show win0_1.index t (0 : Fin 2) * 512 ≤ (i 0 : Nat) ∧ (i 0 : Nat) < win0_1.index t (0 : Fin 2) * 512 + 512; omega
    | ⟨1, _⟩ => show win0_1.index t (1 : Fin 2) * 496 ≤ (i 1 : Nat) ∧ (i 1 : Nat) < win0_1.index t (1 : Fin 2) * 496 + 496; omega

/-- The kernel's run, read: every weakly fair execution ends with the result array at the pairs' inner products of the
    argument array, and the argument unchanged. -/
theorem run : θ_run defs (onTc (τ := τ) (main (F := Ideal))) ⟨m, fun _ => 0, ρ⟩ fun r => ∀ c : Dev nD,
      r.2.mem ((c : Thread nD τ).loc main_v0) = pairProducts (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.KernelValue

end
-- ==== Proof.RefOps.lean ====
/-
  The reference's @main as ONE list of host operations — the operations of each function jax outlined (the upper
  triangle's mask, the two running sums, the clamp, the floor division and the remainder) at its call, over that call's
  buffers — and, per buffer, the pure term it holds once they have run: the batched product of the argument with itself,
  a table of index pairs computed from no input at all, and the product gathered at those pairs.
-/
import proofs.«140735_j6227702579222_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The array a buffer of the program holds. -/
abbrev Arr (F : FTy → Type) [FloatOps F] (T : BufTy) : Type := T.Contents (Elt F)

/-- @main's 136 operations, in order. -/
abbrev ops : List (HloOp τ sig (Elt F)) :=
  [ StableHlo.binary main_arg0 main_arg0 main_v0 ((fun l r => Host.dotGeneral dot_S16384x32x64_S16384x32x64_S16384x32x32_2_2_1_1_0_0 none l r) : (⟨S16384x32x64, .f32⟩ : BufTy).Contents (Elt F) → (⟨S16384x32x64, .f32⟩ : BufTy).Contents (Elt F) → (⟨S16384x32x32, .f32⟩ : BufTy).Contents (Elt F)),
    StableHlo.nullary main_cst (constant S_ .f32 0x3F800000#32),
    StableHlo.unary main_cst main_v1 (broadcastInDim S32x32 ![] bcast_S_S32x32 : (⟨S_, .f32⟩ : BufTy).Contents (Elt F) → (⟨S32x32, .f32⟩ : BufTy).Contents (Elt F)),
    StableHlo.TRef.nullary main_call0.v0 (iotaInDim S32x32 32 0),
    StableHlo.TRef.nullary main_call0.c (constantI S_ 32 0#32),
    StableHlo.TRef.unary main_call0.c main_call0.v1 (broadcastInDim S32x32 ![] bcast_S_S32x32),
    StableHlo.TRef.binary main_call0.v0 main_call0.v1 main_call0.v2 addi,
    StableHlo.TRef.nullary main_call0.v3 (iotaInDim S32x32 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S32x32 ![] bcast_S_S32x32),
    StableHlo.TRef.ternary main_call0.v4 main_call0.v5 (.of main_v1 : StableHlo.TRef sig ⟨S32x32, .f32⟩) main_call0.v6 select,
    StableHlo.nullary main_cst_0 (constant S_ .f32 0x00000000#32),
    StableHlo.unary main_cst_0 main_v3 (broadcastInDim S32x32 ![] bcast_S_S32x32 : (⟨S_, .f32⟩ : BufTy).Contents (Elt F) → (⟨S32x32, .f32⟩ : BufTy).Contents (Elt F)),
    StableHlo.binary main_v2 main_v3 main_v4 (cmpf .une : (⟨S32x32, .f32⟩ : BufTy).Contents (Elt F) → (⟨S32x32, .f32⟩ : BufTy).Contents (Elt F) → (⟨S32x32, .i1⟩ : BufTy).Contents (Elt F)),
    StableHlo.TRef.reshape (.of main_v4 : StableHlo.TRef sig ⟨S32x32, .i1⟩) main_call1.v0 rfl shapeCasts_S32x32_S1024,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![1024] ![1] ![1023] ![0] x v reduceWindows_S1024_S1024_w1024s1p1023_0 h_S_),
    StableHlo.nullary main_c (constantI S_ 32 0#32),
    StableHlo.unary main_c main_v6 (broadcastInDim S496 ![] bcast_S_S496 : (⟨S_, .i32⟩ : BufTy).Contents (Elt F) → (⟨S496, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S1024 ![] bcast_S_S1024),
    StableHlo.TRef.binary main_call2.v1 (.of main_v5 : StableHlo.TRef sig ⟨S1024, .i32⟩) main_call2.v2 maxsi,
    StableHlo.nullary main_c_2 (constantI S_ 32 0#32),
    StableHlo.unary main_c_2 main_v8 (broadcastInDim S1024 ![] bcast_S_S1024 : (⟨S_, .i32⟩ : BufTy).Contents (Elt F) → (⟨S1024, .i32⟩ : BufTy).Contents (Elt F)),
    StableHlo.binary main_v7 main_v8 main_v9 (cmpi .slt : (⟨S1024, .i32⟩ : BufTy).Contents (Elt F) → (⟨S1024, .i32⟩ : BufTy).Contents (Elt F) → (⟨S1024, .i1⟩ : BufTy).Contents (Elt F)),
    StableHlo.nullary main_c_3 (constantI S_ 32 496#32),
    StableHlo.unary main_c_3 main_v10 (broadcastInDim S1024 ![] bcast_S_S1024 : (⟨S_, .i32⟩ : BufTy).Contents (Elt F) → (⟨S1024, .i32⟩ : BufTy).Contents (Elt F)),
    StableHlo.binary main_v7 main_v10 main_v11 (addi : (⟨S1024, .i32⟩ : BufTy).Contents (Elt F) → (⟨S1024, .i32⟩ : BufTy).Contents (Elt F) → (⟨S1024, .i32⟩ : BufTy).Contents (Elt F)),
    StableHlo.ternary main_v9 main_v11 main_v7 main_v12 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v12 main_v13 (broadcastInDim S1024x1 ![0] bcast_S1024_S1024x1_0 : (⟨S1024, .i32⟩ : BufTy).Contents (Elt F) → (⟨S1024x1, .i32⟩ : BufTy).Contents (Elt F)),
    StableHlo.nullary main_c_4 (constantI S_ 32 1#32),
    StableHlo.unary main_c_4 main_v14 (broadcastInDim S1024 ![] bcast_S_S1024 : (⟨S_, .i32⟩ : BufTy).Contents (Elt F) → (⟨S1024, .i32⟩ : BufTy).Contents (Elt F)),
    StableHlo.ternary main_v6 main_v13 main_v14 main_v15 ((fun x i u => Host.scatter scatter_S496_S1024x1_S1024_n_0_0_1 IntOp.addi x i u) : (⟨S496, .i32⟩ : BufTy).Contents (Elt F) → (⟨S1024x1, .i32⟩ : BufTy).Contents (Elt F) → (⟨S1024, .i32⟩ : BufTy).Contents (Elt F) → (⟨S496, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v15 : StableHlo.TRef sig ⟨S496, .i32⟩) main_call3.call0.v0 main_call3.call0.v1 (fun x v => Host.reduceWindow IntOp.addi ![496] ![1] ![495] ![0] x v reduceWindows_S496_S496_w496s1p495_0 h_S_),
    StableHlo.nullary main_c_5 (constantI S_ 32 32#32),
    StableHlo.TRef.unary (.of main_c_5 : StableHlo.TRef sig ⟨S_, .i32⟩) main_call4.v0 (broadcastInDim S496 ![] bcast_S_S496),
    StableHlo.TRef.binary (.of main_v16 : StableHlo.TRef sig ⟨S496, .i32⟩) main_call4.v0 main_call4.v1 Host.divsi,
    StableHlo.TRef.unary (.of main_v16 : StableHlo.TRef sig ⟨S496, .i32⟩) main_call4.v2 signi,
    StableHlo.TRef.unary (.of main_c_5 : StableHlo.TRef sig ⟨S_, .i32⟩) main_call4.v3 signi,
    StableHlo.TRef.unary main_call4.v3 main_call4.v4 (broadcastInDim S496 ![] bcast_S_S496),
    StableHlo.TRef.binary main_call4.v2 main_call4.v4 main_call4.v5 (cmpi .ne),
    StableHlo.TRef.unary (.of main_c_5 : StableHlo.TRef sig ⟨S_, .i32⟩) main_call4.v6 (broadcastInDim S496 ![] bcast_S_S496),
    StableHlo.TRef.binary (.of main_v16 : StableHlo.TRef sig ⟨S496, .i32⟩) main_call4.v6 main_call4.v7 Host.remsi,
    StableHlo.TRef.nullary main_call4.c (constantI S_ 32 0#32),
    StableHlo.TRef.unary main_call4.c main_call4.v8 (broadcastInDim S496 ![] bcast_S_S496),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S496 ![] bcast_S_S496),
    StableHlo.TRef.binary main_call4.v1 main_call4.v11 main_call4.v12 subi,
    StableHlo.TRef.ternary main_call4.v10 main_call4.v12 main_call4.v1 main_call4.call0.v0 select,
    StableHlo.nullary main_c_6 (constantI S_ 32 32#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S496 ![] bcast_S_S496),
    StableHlo.TRef.binary (.of main_v17 : StableHlo.TRef sig ⟨S496, .i32⟩) main_call5.v3 main_call5.v4 Host.remsi,
    StableHlo.TRef.nullary main_call5.c_1 (constantI S_ 32 0#32),
    StableHlo.TRef.unary main_call5.c_1 main_call5.v5 (broadcastInDim S496 ![] bcast_S_S496),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S496 ![] bcast_S_S496),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S496 ![] bcast_S_S496),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S496 ![] bcast_S_S496),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (.of main_c_7 : StableHlo.TRef sig ⟨S_, .i32⟩) main_call6.v0 (broadcastInDim S496 ![] bcast_S_S496),
    StableHlo.TRef.binary (.of main_v16 : StableHlo.TRef sig ⟨S496, .i32⟩) main_call6.v0 main_call6.v1 Host.divsi,
    StableHlo.TRef.unary (.of main_v16 : StableHlo.TRef sig ⟨S496, .i32⟩) main_call6.v2 signi,
    StableHlo.TRef.unary (.of main_c_7 : StableHlo.TRef sig ⟨S_, .i32⟩) main_call6.v3 signi,
    StableHlo.TRef.unary main_call6.v3 main_call6.v4 (broadcastInDim S496 ![] bcast_S_S496),
    StableHlo.TRef.binary main_call6.v2 main_call6.v4 main_call6.v5 (cmpi .ne),
    StableHlo.TRef.unary (.of main_c_7 : StableHlo.TRef sig ⟨S_, .i32⟩) main_call6.v6 (broadcastInDim S496 ![] bcast_S_S496),
    StableHlo.TRef.binary (.of main_v16 : StableHlo.TRef sig ⟨S496, .i32⟩) main_call6.v6 main_call6.v7 Host.remsi,
    StableHlo.TRef.nullary main_call6.c (constantI S_ 32 0#32),
    StableHlo.TRef.unary main_call6.c main_call6.v8 (broadcastInDim S496 ![] bcast_S_S496),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S496 ![] bcast_S_S496),
    StableHlo.TRef.binary main_call6.v1 main_call6.v11 main_call6.v12 subi,
    StableHlo.TRef.ternary main_call6.v10 main_call6.v12 main_call6.v1 main_call6.call0.v0 select,
    StableHlo.nullary main_c_8 (constantI S_ 32 32#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S496 ![] bcast_S_S496),
    StableHlo.TRef.binary (.of main_v19 : StableHlo.TRef sig ⟨S496, .i32⟩) main_call7.v3 main_call7.v4 Host.remsi,
    StableHlo.TRef.nullary main_call7.c_1 (constantI S_ 32 0#32),
    StableHlo.TRef.unary main_call7.c_1 main_call7.v5 (broadcastInDim S496 ![] bcast_S_S496),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S496 ![] bcast_S_S496),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S496 ![] bcast_S_S496),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S496 ![] bcast_S_S496),
    StableHlo.TRef.binary main_call7.v4 main_call7.v13 main_call7.v14 addi,
    StableHlo.TRef.ternary main_call7.v12 main_call7.v14 main_call7.v4 main_call7.v15 select,
    StableHlo.nullary main_c_9 (constantI S_ 32 0#32),
    StableHlo.unary main_c_9 main_v21 (broadcastInDim S496 ![] bcast_S_S496 : (⟨S_, .i32⟩ : BufTy).Contents (Elt F) → (⟨S496, .i32⟩ : BufTy).Contents (Elt F)),
    StableHlo.binary main_v18 main_v21 main_v22 (cmpi .slt : (⟨S496, .i32⟩ : BufTy).Contents (Elt F) → (⟨S496, .i32⟩ : BufTy).Contents (Elt F) → (⟨S496, .i1⟩ : BufTy).Contents (Elt F)),
    StableHlo.nullary main_c_10 (constantI S_ 32 32#32),
    StableHlo.unary main_c_10 main_v23 (broadcastInDim S496 ![] bcast_S_S496 : (⟨S_, .i32⟩ : BufTy).Contents (Elt F) → (⟨S496, .i32⟩ : BufTy).Contents (Elt F)),
    StableHlo.binary main_v18 main_v23 main_v24 (addi : (⟨S496, .i32⟩ : BufTy).Contents (Elt F) → (⟨S496, .i32⟩ : BufTy).Contents (Elt F) → (⟨S496, .i32⟩ : BufTy).Contents (Elt F)),
    StableHlo.ternary main_v22 main_v24 main_v18 main_v25 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.nullary main_c_11 (constantI S_ 32 0#32),
    StableHlo.unary main_c_11 main_v26 (broadcastInDim S496 ![] bcast_S_S496 : (⟨S_, .i32⟩ : BufTy).Contents (Elt F) → (⟨S496, .i32⟩ : BufTy).Contents (Elt F)),
    StableHlo.binary main_v20 main_v26 main_v27 (cmpi .slt : (⟨S496, .i32⟩ : BufTy).Contents (Elt F) → (⟨S496, .i32⟩ : BufTy).Contents (Elt F) → (⟨S496, .i1⟩ : BufTy).Contents (Elt F)),
    StableHlo.nullary main_c_12 (constantI S_ 32 32#32),
    StableHlo.unary main_c_12 main_v28 (broadcastInDim S496 ![] bcast_S_S496 : (⟨S_, .i32⟩ : BufTy).Contents (Elt F) → (⟨S496, .i32⟩ : BufTy).Contents (Elt F)),
    StableHlo.binary main_v20 main_v28 main_v29 (addi : (⟨S496, .i32⟩ : BufTy).Contents (Elt F) → (⟨S496, .i32⟩ : BufTy).Contents (Elt F) → (⟨S496, .i32⟩ : BufTy).Contents (Elt F)),
    StableHlo.ternary main_v27 main_v29 main_v20 main_v30 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.unary main_v25 main_v31 (broadcastInDim S496x1 ![0] bcast_S496_S496x1_0 : (⟨S496, .i32⟩ : BufTy).Contents (Elt F) → (⟨S496x1, .i32⟩ : BufTy).Contents (Elt F)),
    StableHlo.unary main_v30 main_v32 (broadcastInDim S496x1 ![0] bcast_S496_S496x1_0 : (⟨S496, .i32⟩ : BufTy).Contents (Elt F) → (⟨S496x1, .i32⟩ : BufTy).Contents (Elt F)),
    StableHlo.binary main_v31 main_v32 main_v33 ((fun a b => concatenate S496x2 1 [⟨S496x1, a⟩, ⟨S496x1, b⟩] concatenates_S496x1_S496x1_S496x2_d1) : (⟨S496x1, .i32⟩ : BufTy).Contents (Elt F) → (⟨S496x1, .i32⟩ : BufTy).Contents (Elt F) → (⟨S496x2, .i32⟩ : BufTy).Contents (Elt F)),
    StableHlo.binary main_v0 main_v33 main_v34 ((fun x i => Host.gather gather_S16384x32x32_S496x2_S16384x496_0_12_n_n_12_1_1638411 x i) : (⟨S16384x32x32, .f32⟩ : BufTy).Contents (Elt F) → (⟨S496x2, .i32⟩ : BufTy).Contents (Elt F) → (⟨S16384x496, .f32⟩ : BufTy).Contents (Elt F)) ]

/-! ## What each buffer holds after them, as a term of the argument array -/

def val_main_v0 (x : Arr F ⟨S16384x32x64, .f32⟩) : Arr F ⟨S16384x32x32, .f32⟩ :=
  ((fun l r => Host.dotGeneral dot_S16384x32x64_S16384x32x64_S16384x32x32_2_2_1_1_0_0 none l r) : (⟨S16384x32x64, .f32⟩ : BufTy).Contents (Elt F) → (⟨S16384x32x64, .f32⟩ : BufTy).Contents (Elt F) → (⟨S16384x32x32, .f32⟩ : BufTy).Contents (Elt F)) x x
def val_main_cst : Arr F ⟨S_, .f32⟩ :=
  (constant S_ .f32 0x3F800000#32)
def val_main_v1 : Arr F ⟨S32x32, .f32⟩ :=
  (broadcastInDim S32x32 ![] bcast_S_S32x32 : (⟨S_, .f32⟩ : BufTy).Contents (Elt F) → (⟨S32x32, .f32⟩ : BufTy).Contents (Elt F)) (val_main_cst (F := F))
def val_main_call0_v0 : Arr F ⟨S32x32, .i32⟩ :=
  (iotaInDim S32x32 32 0)
def val_main_call0_c : Arr F ⟨S_, .i32⟩ :=
  (constantI S_ 32 0#32)
def val_main_call0_v1 : Arr F ⟨S32x32, .i32⟩ :=
  (broadcastInDim S32x32 ![] bcast_S_S32x32) (val_main_call0_c (F := F))
def val_main_call0_v2 : Arr F ⟨S32x32, .i32⟩ :=
  addi (val_main_call0_v0 (F := F)) (val_main_call0_v1 (F := F))
def val_main_call0_v3 : Arr F ⟨S32x32, .i32⟩ :=
  (iotaInDim S32x32 32 1)
def val_main_call0_v4 : Arr F ⟨S32x32, .i1⟩ :=
  (cmpi .sge) (val_main_call0_v2 (F := F)) (val_main_call0_v3 (F := F))
def val_main_call0_cst : Arr F ⟨S_, .f32⟩ :=
  (constant S_ .f32 0x00000000#32)
def val_main_call0_v5 : Arr F ⟨S32x32, .f32⟩ :=
  (broadcastInDim S32x32 ![] bcast_S_S32x32) (val_main_call0_cst (F := F))
def val_main_v2 : Arr F ⟨S32x32, .f32⟩ :=
  select (val_main_call0_v4 (F := F)) (val_main_call0_v5 (F := F)) (val_main_v1 (F := F))
def val_main_cst_0 : Arr F ⟨S_, .f32⟩ :=
  (constant S_ .f32 0x00000000#32)
def val_main_v3 : Arr F ⟨S32x32, .f32⟩ :=
  (broadcastInDim S32x32 ![] bcast_S_S32x32 : (⟨S_, .f32⟩ : BufTy).Contents (Elt F) → (⟨S32x32, .f32⟩ : BufTy).Contents (Elt F)) (val_main_cst_0 (F := F))
def val_main_v4 : Arr F ⟨S32x32, .i1⟩ :=
  (cmpf .une : (⟨S32x32, .f32⟩ : BufTy).Contents (Elt F) → (⟨S32x32, .f32⟩ : BufTy).Contents (Elt F) → (⟨S32x32, .i1⟩ : BufTy).Contents (Elt F)) (val_main_v2 (F := F)) (val_main_v3 (F := F))
def val_main_call1_v0 : Arr F ⟨S1024, .i1⟩ :=
  fun i => shapeCast S1024 (val_main_v4 (F := F)) shapeCasts_S32x32_S1024 i
def val_main_call1_v1 : Arr F ⟨S1024, .i32⟩ :=
  (extui 32 · natLt_1_32) (val_main_call1_v0 (F := F))
def val_main_call1_call0_c : Arr F ⟨S_, .i32⟩ :=
  (constantI S_ 32 0#32)
def val_main_call1_call0_v0 : Arr F ⟨S_, .i32⟩ :=
  (broadcastInDim S_ ![] bcast_S_S_) (val_main_call1_call0_c (F := F))
def val_main_v5 : Arr F ⟨S1024, .i32⟩ :=
  (fun x v => Host.reduceWindow IntOp.addi ![1024] ![1] ![1023] ![0] x v reduceWindows_S1024_S1024_w1024s1p1023_0 h_S_) (val_main_call1_v1 (F := F)) (val_main_call1_call0_v0 (F := F))
def val_main_c : Arr F ⟨S_, .i32⟩ :=
  (constantI S_ 32 0#32)
def val_main_v6 : Arr F ⟨S496, .i32⟩ :=
  (broadcastInDim S496 ![] bcast_S_S496 : (⟨S_, .i32⟩ : BufTy).Contents (Elt F) → (⟨S496, .i32⟩ : BufTy).Contents (Elt F)) (val_main_c (F := F))
def val_main_c_1 : Arr F ⟨S_, .i32⟩ :=
  (constantI S_ 32 0#32)
def val_main_call2_v0 : Arr F ⟨S_, .i32⟩ :=
  id (val_main_c_1 (F := F))
def val_main_call2_v1 : Arr F ⟨S1024, .i32⟩ :=
  (broadcastInDim S1024 ![] bcast_S_S1024) (val_main_call2_v0 (F := F))
def val_main_v7 : Arr F ⟨S1024, .i32⟩ :=
  maxsi (val_main_call2_v1 (F := F)) (val_main_v5 (F := F))
def val_main_c_2 : Arr F ⟨S_, .i32⟩ :=
  (constantI S_ 32 0#32)
def val_main_v8 : Arr F ⟨S1024, .i32⟩ :=
  (broadcastInDim S1024 ![] bcast_S_S1024 : (⟨S_, .i32⟩ : BufTy).Contents (Elt F) → (⟨S1024, .i32⟩ : BufTy).Contents (Elt F)) (val_main_c_2 (F := F))
def val_main_v9 : Arr F ⟨S1024, .i1⟩ :=
  (cmpi .slt : (⟨S1024, .i32⟩ : BufTy).Contents (Elt F) → (⟨S1024, .i32⟩ : BufTy).Contents (Elt F) → (⟨S1024, .i1⟩ : BufTy).Contents (Elt F)) (val_main_v7 (F := F)) (val_main_v8 (F := F))
def val_main_c_3 : Arr F ⟨S_, .i32⟩ :=
  (constantI S_ 32 496#32)
def val_main_v10 : Arr F ⟨S1024, .i32⟩ :=
  (broadcastInDim S1024 ![] bcast_S_S1024 : (⟨S_, .i32⟩ : BufTy).Contents (Elt F) → (⟨S1024, .i32⟩ : BufTy).Contents (Elt F)) (val_main_c_3 (F := F))
def val_main_v11 : Arr F ⟨S1024, .i32⟩ :=
  (addi : (⟨S1024, .i32⟩ : BufTy).Contents (Elt F) → (⟨S1024, .i32⟩ : BufTy).Contents (Elt F) → (⟨S1024, .i32⟩ : BufTy).Contents (Elt F)) (val_main_v7 (F := F)) (val_main_v10 (F := F))
def val_main_v12 : Arr F ⟨S1024, .i32⟩ :=
  (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) (val_main_v9 (F := F)) (val_main_v11 (F := F)) (val_main_v7 (F := F))
def val_main_v13 : Arr F ⟨S1024x1, .i32⟩ :=
  (broadcastInDim S1024x1 ![0] bcast_S1024_S1024x1_0 : (⟨S1024, .i32⟩ : BufTy).Contents (Elt F) → (⟨S1024x1, .i32⟩ : BufTy).Contents (Elt F)) (val_main_v12 (F := F))
def val_main_c_4 : Arr F ⟨S_, .i32⟩ :=
  (constantI S_ 32 1#32)
def val_main_v14 : Arr F ⟨S1024, .i32⟩ :=
  (broadcastInDim S1024 ![] bcast_S_S1024 : (⟨S_, .i32⟩ : BufTy).Contents (Elt F) → (⟨S1024, .i32⟩ : BufTy).Contents (Elt F)) (val_main_c_4 (F := F))
def val_main_v15 : Arr F ⟨S496, .i32⟩ :=
  ((fun x i u => Host.scatter scatter_S496_S1024x1_S1024_n_0_0_1 IntOp.addi x i u) : (⟨S496, .i32⟩ : BufTy).Contents (Elt F) → (⟨S1024x1, .i32⟩ : BufTy).Contents (Elt F) → (⟨S1024, .i32⟩ : BufTy).Contents (Elt F) → (⟨S496, .i32⟩ : BufTy).Contents (Elt F)) (val_main_v6 (F := F)) (val_main_v13 (F := F)) (val_main_v14 (F := F))
def val_main_call3_call0_c : Arr F ⟨S_, .i32⟩ :=
  (constantI S_ 32 0#32)
def val_main_call3_call0_v0 : Arr F ⟨S_, .i32⟩ :=
  (broadcastInDim S_ ![] bcast_S_S_) (val_main_call3_call0_c (F := F))
def val_main_v16 : Arr F ⟨S496, .i32⟩ :=
  (fun x v => Host.reduceWindow IntOp.addi ![496] ![1] ![495] ![0] x v reduceWindows_S496_S496_w496s1p495_0 h_S_) (val_main_v15 (F := F)) (val_main_call3_call0_v0 (F := F))
def val_main_c_5 : Arr F ⟨S_, .i32⟩ :=
  (constantI S_ 32 32#32)
def val_main_call4_v0 : Arr F ⟨S496, .i32⟩ :=
  (broadcastInDim S496 ![] bcast_S_S496) (val_main_c_5 (F := F))
def val_main_call4_v1 : Arr F ⟨S496, .i32⟩ :=
  Host.divsi (val_main_v16 (F := F)) (val_main_call4_v0 (F := F))
def val_main_call4_v2 : Arr F ⟨S496, .i32⟩ :=
  signi (val_main_v16 (F := F))
def val_main_call4_v3 : Arr F ⟨S_, .i32⟩ :=
  signi (val_main_c_5 (F := F))
def val_main_call4_v4 : Arr F ⟨S496, .i32⟩ :=
  (broadcastInDim S496 ![] bcast_S_S496) (val_main_call4_v3 (F := F))
def val_main_call4_v5 : Arr F ⟨S496, .i1⟩ :=
  (cmpi .ne) (val_main_call4_v2 (F := F)) (val_main_call4_v4 (F := F))
def val_main_call4_v6 : Arr F ⟨S496, .i32⟩ :=
  (broadcastInDim S496 ![] bcast_S_S496) (val_main_c_5 (F := F))
def val_main_call4_v7 : Arr F ⟨S496, .i32⟩ :=
  Host.remsi (val_main_v16 (F := F)) (val_main_call4_v6 (F := F))
def val_main_call4_c : Arr F ⟨S_, .i32⟩ :=
  (constantI S_ 32 0#32)
def val_main_call4_v8 : Arr F ⟨S496, .i32⟩ :=
  (broadcastInDim S496 ![] bcast_S_S496) (val_main_call4_c (F := F))
def val_main_call4_v9 : Arr F ⟨S496, .i1⟩ :=
  (cmpi .ne) (val_main_call4_v7 (F := F)) (val_main_call4_v8 (F := F))
def val_main_call4_v10 : Arr F ⟨S496, .i1⟩ :=
  andi (val_main_call4_v5 (F := F)) (val_main_call4_v9 (F := F))
def val_main_call4_c_0 : Arr F ⟨S_, .i32⟩ :=
  (constantI S_ 32 1#32)
def val_main_call4_v11 : Arr F ⟨S496, .i32⟩ :=
  (broadcastInDim S496 ![] bcast_S_S496) (val_main_call4_c_0 (F := F))
def val_main_call4_v12 : Arr F ⟨S496, .i32⟩ :=
  subi (val_main_call4_v1 (F := F)) (val_main_call4_v11 (F := F))
def val_main_v17 : Arr F ⟨S496, .i32⟩ :=
  select (val_main_call4_v10 (F := F)) (val_main_call4_v12 (F := F)) (val_main_call4_v1 (F := F))
def val_main_c_6 : Arr F ⟨S_, .i32⟩ :=
  (constantI S_ 32 32#32)
def val_main_call5_v0 : Arr F ⟨S_, .i32⟩ :=
  id (val_main_c_6 (F := F))
def val_main_call5_c : Arr F ⟨S_, .i32⟩ :=
  (constantI S_ 32 0#32)
def val_main_call5_v1 : Arr F ⟨S_, .i1⟩ :=
  (cmpi .eq) (val_main_call5_v0 (F := F)) (val_main_call5_c (F := F))
def val_main_call5_c_0 : Arr F ⟨S_, .i32⟩ :=
  (constantI S_ 32 1#32)
def val_main_call5_v2 : Arr F ⟨S_, .i32⟩ :=
  select (val_main_call5_v1 (F := F)) (val_main_call5_c_0 (F := F)) (val_main_call5_v0 (F := F))
def val_main_call5_v3 : Arr F ⟨S496, .i32⟩ :=
  (broadcastInDim S496 ![] bcast_S_S496) (val_main_call5_v2 (F := F))
def val_main_call5_v4 : Arr F ⟨S496, .i32⟩ :=
  Host.remsi (val_main_v17 (F := F)) (val_main_call5_v3 (F := F))
def val_main_call5_c_1 : Arr F ⟨S_, .i32⟩ :=
  (constantI S_ 32 0#32)
def val_main_call5_v5 : Arr F ⟨S496, .i32⟩ :=
  (broadcastInDim S496 ![] bcast_S_S496) (val_main_call5_c_1 (F := F))
def val_main_call5_v6 : Arr F ⟨S496, .i1⟩ :=
  (cmpi .ne) (val_main_call5_v4 (F := F)) (val_main_call5_v5 (F := F))
def val_main_call5_c_2 : Arr F ⟨S_, .i32⟩ :=
  (constantI S_ 32 0#32)
def val_main_call5_v7 : Arr F ⟨S496, .i32⟩ :=
  (broadcastInDim S496 ![] bcast_S_S496) (val_main_call5_c_2 (F := F))
def val_main_call5_v8 : Arr F ⟨S496, .i1⟩ :=
  (cmpi .slt) (val_main_call5_v4 (F := F)) (val_main_call5_v7 (F := F))
def val_main_call5_c_3 : Arr F ⟨S_, .i32⟩ :=
  (constantI S_ 32 0#32)
def val_main_call5_v9 : Arr F ⟨S_, .i1⟩ :=
  (cmpi .slt) (val_main_call5_v2 (F := F)) (val_main_call5_c_3 (F := F))
def val_main_call5_v10 : Arr F ⟨S496, .i1⟩ :=
  (broadcastInDim S496 ![] bcast_S_S496) (val_main_call5_v9 (F := F))
def val_main_call5_v11 : Arr F ⟨S496, .i1⟩ :=
  (cmpi .ne) (val_main_call5_v8 (F := F)) (val_main_call5_v10 (F := F))
def val_main_call5_v12 : Arr F ⟨S496, .i1⟩ :=
  andi (val_main_call5_v11 (F := F)) (val_main_call5_v6 (F := F))
def val_main_call5_v13 : Arr F ⟨S496, .i32⟩ :=
  (broadcastInDim S496 ![] bcast_S_S496) (val_main_call5_v2 (F := F))
def val_main_call5_v14 : Arr F ⟨S496, .i32⟩ :=
  addi (val_main_call5_v4 (F := F)) (val_main_call5_v13 (F := F))
def val_main_v18 : Arr F ⟨S496, .i32⟩ :=
  select (val_main_call5_v12 (F := F)) (val_main_call5_v14 (F := F)) (val_main_call5_v4 (F := F))
def val_main_c_7 : Arr F ⟨S_, .i32⟩ :=
  (constantI S_ 32 1#32)
def val_main_call6_v0 : Arr F ⟨S496, .i32⟩ :=
  (broadcastInDim S496 ![] bcast_S_S496) (val_main_c_7 (F := F))
def val_main_call6_v1 : Arr F ⟨S496, .i32⟩ :=
  Host.divsi (val_main_v16 (F := F)) (val_main_call6_v0 (F := F))
def val_main_call6_v2 : Arr F ⟨S496, .i32⟩ :=
  signi (val_main_v16 (F := F))
def val_main_call6_v3 : Arr F ⟨S_, .i32⟩ :=
  signi (val_main_c_7 (F := F))
def val_main_call6_v4 : Arr F ⟨S496, .i32⟩ :=
  (broadcastInDim S496 ![] bcast_S_S496) (val_main_call6_v3 (F := F))
def val_main_call6_v5 : Arr F ⟨S496, .i1⟩ :=
  (cmpi .ne) (val_main_call6_v2 (F := F)) (val_main_call6_v4 (F := F))
def val_main_call6_v6 : Arr F ⟨S496, .i32⟩ :=
  (broadcastInDim S496 ![] bcast_S_S496) (val_main_c_7 (F := F))
def val_main_call6_v7 : Arr F ⟨S496, .i32⟩ :=
  Host.remsi (val_main_v16 (F := F)) (val_main_call6_v6 (F := F))
def val_main_call6_c : Arr F ⟨S_, .i32⟩ :=
  (constantI S_ 32 0#32)
def val_main_call6_v8 : Arr F ⟨S496, .i32⟩ :=
  (broadcastInDim S496 ![] bcast_S_S496) (val_main_call6_c (F := F))
def val_main_call6_v9 : Arr F ⟨S496, .i1⟩ :=
  (cmpi .ne) (val_main_call6_v7 (F := F)) (val_main_call6_v8 (F := F))
def val_main_call6_v10 : Arr F ⟨S496, .i1⟩ :=
  andi (val_main_call6_v5 (F := F)) (val_main_call6_v9 (F := F))
def val_main_call6_c_0 : Arr F ⟨S_, .i32⟩ :=
  (constantI S_ 32 1#32)
def val_main_call6_v11 : Arr F ⟨S496, .i32⟩ :=
  (broadcastInDim S496 ![] bcast_S_S496) (val_main_call6_c_0 (F := F))
def val_main_call6_v12 : Arr F ⟨S496, .i32⟩ :=
  subi (val_main_call6_v1 (F := F)) (val_main_call6_v11 (F := F))
def val_main_v19 : Arr F ⟨S496, .i32⟩ :=
  select (val_main_call6_v10 (F := F)) (val_main_call6_v12 (F := F)) (val_main_call6_v1 (F := F))
def val_main_c_8 : Arr F ⟨S_, .i32⟩ :=
  (constantI S_ 32 32#32)
def val_main_call7_v0 : Arr F ⟨S_, .i32⟩ :=
  id (val_main_c_8 (F := F))
def val_main_call7_c : Arr F ⟨S_, .i32⟩ :=
  (constantI S_ 32 0#32)
def val_main_call7_v1 : Arr F ⟨S_, .i1⟩ :=
  (cmpi .eq) (val_main_call7_v0 (F := F)) (val_main_call7_c (F := F))
def val_main_call7_c_0 : Arr F ⟨S_, .i32⟩ :=
  (constantI S_ 32 1#32)
def val_main_call7_v2 : Arr F ⟨S_, .i32⟩ :=
  select (val_main_call7_v1 (F := F)) (val_main_call7_c_0 (F := F)) (val_main_call7_v0 (F := F))
def val_main_call7_v3 : Arr F ⟨S496, .i32⟩ :=
  (broadcastInDim S496 ![] bcast_S_S496) (val_main_call7_v2 (F := F))
def val_main_call7_v4 : Arr F ⟨S496, .i32⟩ :=
  Host.remsi (val_main_v19 (F := F)) (val_main_call7_v3 (F := F))
def val_main_call7_c_1 : Arr F ⟨S_, .i32⟩ :=
  (constantI S_ 32 0#32)
def val_main_call7_v5 : Arr F ⟨S496, .i32⟩ :=
  (broadcastInDim S496 ![] bcast_S_S496) (val_main_call7_c_1 (F := F))
def val_main_call7_v6 : Arr F ⟨S496, .i1⟩ :=
  (cmpi .ne) (val_main_call7_v4 (F := F)) (val_main_call7_v5 (F := F))
def val_main_call7_c_2 : Arr F ⟨S_, .i32⟩ :=
  (constantI S_ 32 0#32)
def val_main_call7_v7 : Arr F ⟨S496, .i32⟩ :=
  (broadcastInDim S496 ![] bcast_S_S496) (val_main_call7_c_2 (F := F))
def val_main_call7_v8 : Arr F ⟨S496, .i1⟩ :=
  (cmpi .slt) (val_main_call7_v4 (F := F)) (val_main_call7_v7 (F := F))
def val_main_call7_c_3 : Arr F ⟨S_, .i32⟩ :=
  (constantI S_ 32 0#32)
def val_main_call7_v9 : Arr F ⟨S_, .i1⟩ :=
  (cmpi .slt) (val_main_call7_v2 (F := F)) (val_main_call7_c_3 (F := F))
def val_main_call7_v10 : Arr F ⟨S496, .i1⟩ :=
  (broadcastInDim S496 ![] bcast_S_S496) (val_main_call7_v9 (F := F))
def val_main_call7_v11 : Arr F ⟨S496, .i1⟩ :=
  (cmpi .ne) (val_main_call7_v8 (F := F)) (val_main_call7_v10 (F := F))
def val_main_call7_v12 : Arr F ⟨S496, .i1⟩ :=
  andi (val_main_call7_v11 (F := F)) (val_main_call7_v6 (F := F))
def val_main_call7_v13 : Arr F ⟨S496, .i32⟩ :=
  (broadcastInDim S496 ![] bcast_S_S496) (val_main_call7_v2 (F := F))
def val_main_call7_v14 : Arr F ⟨S496, .i32⟩ :=
  addi (val_main_call7_v4 (F := F)) (val_main_call7_v13 (F := F))
def val_main_v20 : Arr F ⟨S496, .i32⟩ :=
  select (val_main_call7_v12 (F := F)) (val_main_call7_v14 (F := F)) (val_main_call7_v4 (F := F))
def val_main_c_9 : Arr F ⟨S_, .i32⟩ :=
  (constantI S_ 32 0#32)
def val_main_v21 : Arr F ⟨S496, .i32⟩ :=
  (broadcastInDim S496 ![] bcast_S_S496 : (⟨S_, .i32⟩ : BufTy).Contents (Elt F) → (⟨S496, .i32⟩ : BufTy).Contents (Elt F)) (val_main_c_9 (F := F))
def val_main_v22 : Arr F ⟨S496, .i1⟩ :=
  (cmpi .slt : (⟨S496, .i32⟩ : BufTy).Contents (Elt F) → (⟨S496, .i32⟩ : BufTy).Contents (Elt F) → (⟨S496, .i1⟩ : BufTy).Contents (Elt F)) (val_main_v18 (F := F)) (val_main_v21 (F := F))
def val_main_c_10 : Arr F ⟨S_, .i32⟩ :=
  (constantI S_ 32 32#32)
def val_main_v23 : Arr F ⟨S496, .i32⟩ :=
  (broadcastInDim S496 ![] bcast_S_S496 : (⟨S_, .i32⟩ : BufTy).Contents (Elt F) → (⟨S496, .i32⟩ : BufTy).Contents (Elt F)) (val_main_c_10 (F := F))
def val_main_v24 : Arr F ⟨S496, .i32⟩ :=
  (addi : (⟨S496, .i32⟩ : BufTy).Contents (Elt F) → (⟨S496, .i32⟩ : BufTy).Contents (Elt F) → (⟨S496, .i32⟩ : BufTy).Contents (Elt F)) (val_main_v18 (F := F)) (val_main_v23 (F := F))
def val_main_v25 : Arr F ⟨S496, .i32⟩ :=
  (select : (⟨S496, .i1⟩ : BufTy).Contents (Elt F) → (⟨S496, .i32⟩ : BufTy).Contents (Elt F) → (⟨S496, .i32⟩ : BufTy).Contents (Elt F) → (⟨S496, .i32⟩ : BufTy).Contents (Elt F)) (val_main_v22 (F := F)) (val_main_v24 (F := F)) (val_main_v18 (F := F))
def val_main_c_11 : Arr F ⟨S_, .i32⟩ :=
  (constantI S_ 32 0#32)
def val_main_v26 : Arr F ⟨S496, .i32⟩ :=
  (broadcastInDim S496 ![] bcast_S_S496 : (⟨S_, .i32⟩ : BufTy).Contents (Elt F) → (⟨S496, .i32⟩ : BufTy).Contents (Elt F)) (val_main_c_11 (F := F))
def val_main_v27 : Arr F ⟨S496, .i1⟩ :=
  (cmpi .slt : (⟨S496, .i32⟩ : BufTy).Contents (Elt F) → (⟨S496, .i32⟩ : BufTy).Contents (Elt F) → (⟨S496, .i1⟩ : BufTy).Contents (Elt F)) (val_main_v20 (F := F)) (val_main_v26 (F := F))
def val_main_c_12 : Arr F ⟨S_, .i32⟩ :=
  (constantI S_ 32 32#32)
def val_main_v28 : Arr F ⟨S496, .i32⟩ :=
  (broadcastInDim S496 ![] bcast_S_S496 : (⟨S_, .i32⟩ : BufTy).Contents (Elt F) → (⟨S496, .i32⟩ : BufTy).Contents (Elt F)) (val_main_c_12 (F := F))
def val_main_v29 : Arr F ⟨S496, .i32⟩ :=
  (addi : (⟨S496, .i32⟩ : BufTy).Contents (Elt F) → (⟨S496, .i32⟩ : BufTy).Contents (Elt F) → (⟨S496, .i32⟩ : BufTy).Contents (Elt F)) (val_main_v20 (F := F)) (val_main_v28 (F := F))
def val_main_v30 : Arr F ⟨S496, .i32⟩ :=
  (select : (⟨S496, .i1⟩ : BufTy).Contents (Elt F) → (⟨S496, .i32⟩ : BufTy).Contents (Elt F) → (⟨S496, .i32⟩ : BufTy).Contents (Elt F) → (⟨S496, .i32⟩ : BufTy).Contents (Elt F)) (val_main_v27 (F := F)) (val_main_v29 (F := F)) (val_main_v20 (F := F))
def val_main_v31 : Arr F ⟨S496x1, .i32⟩ :=
  (broadcastInDim S496x1 ![0] bcast_S496_S496x1_0 : (⟨S496, .i32⟩ : BufTy).Contents (Elt F) → (⟨S496x1, .i32⟩ : BufTy).Contents (Elt F)) (val_main_v25 (F := F))
def val_main_v32 : Arr F ⟨S496x1, .i32⟩ :=
  (broadcastInDim S496x1 ![0] bcast_S496_S496x1_0 : (⟨S496, .i32⟩ : BufTy).Contents (Elt F) → (⟨S496x1, .i32⟩ : BufTy).Contents (Elt F)) (val_main_v30 (F := F))
def val_main_v33 : Arr F ⟨S496x2, .i32⟩ :=
  ((fun a b => concatenate S496x2 1 [⟨S496x1, a⟩, ⟨S496x1, b⟩] concatenates_S496x1_S496x1_S496x2_d1) : (⟨S496x1, .i32⟩ : BufTy).Contents (Elt F) → (⟨S496x1, .i32⟩ : BufTy).Contents (Elt F) → (⟨S496x2, .i32⟩ : BufTy).Contents (Elt F)) (val_main_v31 (F := F)) (val_main_v32 (F := F))
def val_main_v34 (x : Arr F ⟨S16384x32x64, .f32⟩) : Arr F ⟨S16384x496, .f32⟩ :=
  ((fun x i => Host.gather gather_S16384x32x32_S496x2_S16384x496_0_12_n_n_12_1_1638411 x i) : (⟨S16384x32x32, .f32⟩ : BufTy).Contents (Elt F) → (⟨S496x2, .i32⟩ : BufTy).Contents (Elt F) → (⟨S16384x496, .f32⟩ : BufTy).Contents (Elt F)) (val_main_v0 x) (val_main_v33 (F := F))

end Cert.ReferenceIdeal.RefOps

end
-- ==== Proof.RefRun.lean ====
/-
  The reference's run. Its @main is one straight line of 136 host operations (`RefOps.ops`: the operations of each
  function outlined at a call — the upper triangle's mask, the running sums, the clamp, the floor divisions and the
  remainders — inlined at the call over that call's buffers), so every weakly fair execution terminates, and every
  final state holds, in the result buffer, the pure term `RefOps.val_main_v34` of the argument array — the batched
  product gathered at the table of index pairs — with the argument unchanged.

  The term is read back stage by stage. The line is cut where few buffers are live (after the first running sum,
  the clamp, the second running sum, each floor division and remainder, the two index columns); a stage, run from
  ANY contents at which the buffers it reads hold their terms, leaves each buffer a later stage reads at its term.
  Within a stage the fold over its operations is computed at the buffer asked for, the buffers read are replaced
  by their terms, and the two sides are then one term: the right one by unfolding the `val_` definitions of the
  stage's own buffers only. The transports a typed reference puts around a function's operands and value are the
  identity at a literal reference; they are removed before the sides are compared, so that two applications of
  `Host.scatter`, `Host.reduceWindow` or `Host.gather` are compared argument by argument and never opened.
-/
import proofs.«140735_j6227702579222_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program is the line -/

-- 136 binds re-associated: the rewrite under the chain recurses once per statement
set_option maxRecDepth 8192 in
/-- @main is that straight line: the outlined functions' bodies unfolded at their calls and the calls' buffer records
    at their fields, both sides are one chain of `hlo` steps once sequencing is re-associated. -/
theorem main_eq (c : Dev nD) : main (F := F) c = seq RefOps.ops := by
  simp only [main, fn_triu.body, fn_cumsum.body, fn_cumsum_0.body, fn_clip.body, fn_cumsum_1.body, fn_cumsum_2.body,
    fn_where.body, fn_floor_divide.body, fn_where_3.body, fn_remainder.body, seq, bind_assoc, pure_bind]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of the line touches TensorCore references only. -/
theorem ops_sub : (RefOps.ops : List (HloOp τ sig (Elt F))).Forall fun op => op.bufs ⊆ tcRefs τ sig :=
  ⟨binary_bufs_sub .., nullary_bufs_sub .., unary_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub ..⟩

/-! ## The line in stages -/

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Stage 1 of the line (operations 1–20): the batched product, the mask of the strict upper triangle and its running sum. -/
abbrev seg1 : List (HloOp τ sig (Elt F)) :=
  [ StableHlo.binary main_arg0 main_arg0 main_v0 ((fun l r => Host.dotGeneral dot_S16384x32x64_S16384x32x64_S16384x32x32_2_2_1_1_0_0 none l r) : (⟨S16384x32x64, .f32⟩ : BufTy).Contents (Elt F) → (⟨S16384x32x64, .f32⟩ : BufTy).Contents (Elt F) → (⟨S16384x32x32, .f32⟩ : BufTy).Contents (Elt F)),
    StableHlo.nullary main_cst (constant S_ .f32 0x3F800000#32),
    StableHlo.unary main_cst main_v1 (broadcastInDim S32x32 ![] bcast_S_S32x32 : (⟨S_, .f32⟩ : BufTy).Contents (Elt F) → (⟨S32x32, .f32⟩ : BufTy).Contents (Elt F)),
    StableHlo.TRef.nullary main_call0.v0 (iotaInDim S32x32 32 0),
    StableHlo.TRef.nullary main_call0.c (constantI S_ 32 0#32),
    StableHlo.TRef.unary main_call0.c main_call0.v1 (broadcastInDim S32x32 ![] bcast_S_S32x32),
    StableHlo.TRef.binary main_call0.v0 main_call0.v1 main_call0.v2 addi,
    StableHlo.TRef.nullary main_call0.v3 (iotaInDim S32x32 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S32x32 ![] bcast_S_S32x32),
    StableHlo.TRef.ternary main_call0.v4 main_call0.v5 (.of main_v1 : StableHlo.TRef sig ⟨S32x32, .f32⟩) main_call0.v6 select,
    StableHlo.nullary main_cst_0 (constant S_ .f32 0x00000000#32),
    StableHlo.unary main_cst_0 main_v3 (broadcastInDim S32x32 ![] bcast_S_S32x32 : (⟨S_, .f32⟩ : BufTy).Contents (Elt F) → (⟨S32x32, .f32⟩ : BufTy).Contents (Elt F)),
    StableHlo.binary main_v2 main_v3 main_v4 (cmpf .une : (⟨S32x32, .f32⟩ : BufTy).Contents (Elt F) → (⟨S32x32, .f32⟩ : BufTy).Contents (Elt F) → (⟨S32x32, .i1⟩ : BufTy).Contents (Elt F)),
    StableHlo.TRef.reshape (.of main_v4 : StableHlo.TRef sig ⟨S32x32, .i1⟩) main_call1.v0 rfl shapeCasts_S32x32_S1024,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![1024] ![1] ![1023] ![0] x v reduceWindows_S1024_S1024_w1024s1p1023_0 h_S_) ]

/-- Stage 2 of the line (operations 21–26): the zero table the counts are scattered into, and the running sum clamped below at zero. -/
abbrev seg2 : List (HloOp τ sig (Elt F)) :=
  [ StableHlo.nullary main_c (constantI S_ 32 0#32),
    StableHlo.unary main_c main_v6 (broadcastInDim S496 ![] bcast_S_S496 : (⟨S_, .i32⟩ : BufTy).Contents (Elt F) → (⟨S496, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S1024 ![] bcast_S_S1024),
    StableHlo.TRef.binary main_call2.v1 (.of main_v5 : StableHlo.TRef sig ⟨S1024, .i32⟩) main_call2.v2 maxsi ]

/-- Stage 3 of the line (operations 27–40): the negative-index wrap of the clamped running sum, its scatter of ones into the table, and the table's running sum: the flat position of each pair. -/
abbrev seg3 : List (HloOp τ sig (Elt F)) :=
  [ StableHlo.nullary main_c_2 (constantI S_ 32 0#32),
    StableHlo.unary main_c_2 main_v8 (broadcastInDim S1024 ![] bcast_S_S1024 : (⟨S_, .i32⟩ : BufTy).Contents (Elt F) → (⟨S1024, .i32⟩ : BufTy).Contents (Elt F)),
    StableHlo.binary main_v7 main_v8 main_v9 (cmpi .slt : (⟨S1024, .i32⟩ : BufTy).Contents (Elt F) → (⟨S1024, .i32⟩ : BufTy).Contents (Elt F) → (⟨S1024, .i1⟩ : BufTy).Contents (Elt F)),
    StableHlo.nullary main_c_3 (constantI S_ 32 496#32),
    StableHlo.unary main_c_3 main_v10 (broadcastInDim S1024 ![] bcast_S_S1024 : (⟨S_, .i32⟩ : BufTy).Contents (Elt F) → (⟨S1024, .i32⟩ : BufTy).Contents (Elt F)),
    StableHlo.binary main_v7 main_v10 main_v11 (addi : (⟨S1024, .i32⟩ : BufTy).Contents (Elt F) → (⟨S1024, .i32⟩ : BufTy).Contents (Elt F) → (⟨S1024, .i32⟩ : BufTy).Contents (Elt F)),
    StableHlo.ternary main_v9 main_v11 main_v7 main_v12 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v12 main_v13 (broadcastInDim S1024x1 ![0] bcast_S1024_S1024x1_0 : (⟨S1024, .i32⟩ : BufTy).Contents (Elt F) → (⟨S1024x1, .i32⟩ : BufTy).Contents (Elt F)),
    StableHlo.nullary main_c_4 (constantI S_ 32 1#32),
    StableHlo.unary main_c_4 main_v14 (broadcastInDim S1024 ![] bcast_S_S1024 : (⟨S_, .i32⟩ : BufTy).Contents (Elt F) → (⟨S1024, .i32⟩ : BufTy).Contents (Elt F)),
    StableHlo.ternary main_v6 main_v13 main_v14 main_v15 ((fun x i u => Host.scatter scatter_S496_S1024x1_S1024_n_0_0_1 IntOp.addi x i u) : (⟨S496, .i32⟩ : BufTy).Contents (Elt F) → (⟨S1024x1, .i32⟩ : BufTy).Contents (Elt F) → (⟨S1024, .i32⟩ : BufTy).Contents (Elt F) → (⟨S496, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v15 : StableHlo.TRef sig ⟨S496, .i32⟩) main_call3.call0.v0 main_call3.call0.v1 (fun x v => Host.reduceWindow IntOp.addi ![496] ![1] ![495] ![0] x v reduceWindows_S496_S496_w496s1p495_0 h_S_) ]

/-- Stage 4 of the line (operations 41–57): the floor division of the flat positions by 32. -/
abbrev seg4 : List (HloOp τ sig (Elt F)) :=
  [ StableHlo.nullary main_c_5 (constantI S_ 32 32#32),
    StableHlo.TRef.unary (.of main_c_5 : StableHlo.TRef sig ⟨S_, .i32⟩) main_call4.v0 (broadcastInDim S496 ![] bcast_S_S496),
    StableHlo.TRef.binary (.of main_v16 : StableHlo.TRef sig ⟨S496, .i32⟩) main_call4.v0 main_call4.v1 Host.divsi,
    StableHlo.TRef.unary (.of main_v16 : StableHlo.TRef sig ⟨S496, .i32⟩) main_call4.v2 signi,
    StableHlo.TRef.unary (.of main_c_5 : StableHlo.TRef sig ⟨S_, .i32⟩) main_call4.v3 signi,
    StableHlo.TRef.unary main_call4.v3 main_call4.v4 (broadcastInDim S496 ![] bcast_S_S496),
    StableHlo.TRef.binary main_call4.v2 main_call4.v4 main_call4.v5 (cmpi .ne),
    StableHlo.TRef.unary (.of main_c_5 : StableHlo.TRef sig ⟨S_, .i32⟩) main_call4.v6 (broadcastInDim S496 ![] bcast_S_S496),
    StableHlo.TRef.binary (.of main_v16 : StableHlo.TRef sig ⟨S496, .i32⟩) main_call4.v6 main_call4.v7 Host.remsi,
    StableHlo.TRef.nullary main_call4.c (constantI S_ 32 0#32),
    StableHlo.TRef.unary main_call4.c main_call4.v8 (broadcastInDim S496 ![] bcast_S_S496),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S496 ![] bcast_S_S496),
    StableHlo.TRef.binary main_call4.v1 main_call4.v11 main_call4.v12 subi,
    StableHlo.TRef.ternary main_call4.v10 main_call4.v12 main_call4.v1 main_call4.call0.v0 select ]

/-- Stage 5 of the line (operations 58–79): the remainder of that quotient by 32: the rows. -/
abbrev seg5 : List (HloOp τ sig (Elt F)) :=
  [ StableHlo.nullary main_c_6 (constantI S_ 32 32#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S496 ![] bcast_S_S496),
    StableHlo.TRef.binary (.of main_v17 : StableHlo.TRef sig ⟨S496, .i32⟩) main_call5.v3 main_call5.v4 Host.remsi,
    StableHlo.TRef.nullary main_call5.c_1 (constantI S_ 32 0#32),
    StableHlo.TRef.unary main_call5.c_1 main_call5.v5 (broadcastInDim S496 ![] bcast_S_S496),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S496 ![] bcast_S_S496),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S496 ![] bcast_S_S496),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S496 ![] bcast_S_S496),
    StableHlo.TRef.binary main_call5.v4 main_call5.v13 main_call5.v14 addi,
    StableHlo.TRef.ternary main_call5.v12 main_call5.v14 main_call5.v4 main_call5.v15 select ]

/-- Stage 6 of the line (operations 80–96): the floor division of the flat positions by 1. -/
abbrev seg6 : List (HloOp τ sig (Elt F)) :=
  [ StableHlo.nullary main_c_7 (constantI S_ 32 1#32),
    StableHlo.TRef.unary (.of main_c_7 : StableHlo.TRef sig ⟨S_, .i32⟩) main_call6.v0 (broadcastInDim S496 ![] bcast_S_S496),
    StableHlo.TRef.binary (.of main_v16 : StableHlo.TRef sig ⟨S496, .i32⟩) main_call6.v0 main_call6.v1 Host.divsi,
    StableHlo.TRef.unary (.of main_v16 : StableHlo.TRef sig ⟨S496, .i32⟩) main_call6.v2 signi,
    StableHlo.TRef.unary (.of main_c_7 : StableHlo.TRef sig ⟨S_, .i32⟩) main_call6.v3 signi,
    StableHlo.TRef.unary main_call6.v3 main_call6.v4 (broadcastInDim S496 ![] bcast_S_S496),
    StableHlo.TRef.binary main_call6.v2 main_call6.v4 main_call6.v5 (cmpi .ne),
    StableHlo.TRef.unary (.of main_c_7 : StableHlo.TRef sig ⟨S_, .i32⟩) main_call6.v6 (broadcastInDim S496 ![] bcast_S_S496),
    StableHlo.TRef.binary (.of main_v16 : StableHlo.TRef sig ⟨S496, .i32⟩) main_call6.v6 main_call6.v7 Host.remsi,
    StableHlo.TRef.nullary main_call6.c (constantI S_ 32 0#32),
    StableHlo.TRef.unary main_call6.c main_call6.v8 (broadcastInDim S496 ![] bcast_S_S496),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S496 ![] bcast_S_S496),
    StableHlo.TRef.binary main_call6.v1 main_call6.v11 main_call6.v12 subi,
    StableHlo.TRef.ternary main_call6.v10 main_call6.v12 main_call6.v1 main_call6.call0.v0 select ]

/-- Stage 7 of the line (operations 97–118): the remainder of that quotient by 32: the columns. -/
abbrev seg7 : List (HloOp τ sig (Elt F)) :=
  [ StableHlo.nullary main_c_8 (constantI S_ 32 32#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S496 ![] bcast_S_S496),
    StableHlo.TRef.binary (.of main_v19 : StableHlo.TRef sig ⟨S496, .i32⟩) main_call7.v3 main_call7.v4 Host.remsi,
    StableHlo.TRef.nullary main_call7.c_1 (constantI S_ 32 0#32),
    StableHlo.TRef.unary main_call7.c_1 main_call7.v5 (broadcastInDim S496 ![] bcast_S_S496),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S496 ![] bcast_S_S496),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S496 ![] bcast_S_S496),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S496 ![] bcast_S_S496),
    StableHlo.TRef.binary main_call7.v4 main_call7.v13 main_call7.v14 addi,
    StableHlo.TRef.ternary main_call7.v12 main_call7.v14 main_call7.v4 main_call7.v15 select ]

/-- Stage 8 of the line (operations 119–134): the negative-index wrap of the rows and of the columns, each as a one-column table. -/
abbrev seg8 : List (HloOp τ sig (Elt F)) :=
  [ StableHlo.nullary main_c_9 (constantI S_ 32 0#32),
    StableHlo.unary main_c_9 main_v21 (broadcastInDim S496 ![] bcast_S_S496 : (⟨S_, .i32⟩ : BufTy).Contents (Elt F) → (⟨S496, .i32⟩ : BufTy).Contents (Elt F)),
    StableHlo.binary main_v18 main_v21 main_v22 (cmpi .slt : (⟨S496, .i32⟩ : BufTy).Contents (Elt F) → (⟨S496, .i32⟩ : BufTy).Contents (Elt F) → (⟨S496, .i1⟩ : BufTy).Contents (Elt F)),
    StableHlo.nullary main_c_10 (constantI S_ 32 32#32),
    StableHlo.unary main_c_10 main_v23 (broadcastInDim S496 ![] bcast_S_S496 : (⟨S_, .i32⟩ : BufTy).Contents (Elt F) → (⟨S496, .i32⟩ : BufTy).Contents (Elt F)),
    StableHlo.binary main_v18 main_v23 main_v24 (addi : (⟨S496, .i32⟩ : BufTy).Contents (Elt F) → (⟨S496, .i32⟩ : BufTy).Contents (Elt F) → (⟨S496, .i32⟩ : BufTy).Contents (Elt F)),
    StableHlo.ternary main_v22 main_v24 main_v18 main_v25 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.nullary main_c_11 (constantI S_ 32 0#32),
    StableHlo.unary main_c_11 main_v26 (broadcastInDim S496 ![] bcast_S_S496 : (⟨S_, .i32⟩ : BufTy).Contents (Elt F) → (⟨S496, .i32⟩ : BufTy).Contents (Elt F)),
    StableHlo.binary main_v20 main_v26 main_v27 (cmpi .slt : (⟨S496, .i32⟩ : BufTy).Contents (Elt F) → (⟨S496, .i32⟩ : BufTy).Contents (Elt F) → (⟨S496, .i1⟩ : BufTy).Contents (Elt F)),
    StableHlo.nullary main_c_12 (constantI S_ 32 32#32),
    StableHlo.unary main_c_12 main_v28 (broadcastInDim S496 ![] bcast_S_S496 : (⟨S_, .i32⟩ : BufTy).Contents (Elt F) → (⟨S496, .i32⟩ : BufTy).Contents (Elt F)),
    StableHlo.binary main_v20 main_v28 main_v29 (addi : (⟨S496, .i32⟩ : BufTy).Contents (Elt F) → (⟨S496, .i32⟩ : BufTy).Contents (Elt F) → (⟨S496, .i32⟩ : BufTy).Contents (Elt F)),
    StableHlo.ternary main_v27 main_v29 main_v20 main_v30 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.unary main_v25 main_v31 (broadcastInDim S496x1 ![0] bcast_S496_S496x1_0 : (⟨S496, .i32⟩ : BufTy).Contents (Elt F) → (⟨S496x1, .i32⟩ : BufTy).Contents (Elt F)),
    StableHlo.unary main_v30 main_v32 (broadcastInDim S496x1 ![0] bcast_S496_S496x1_0 : (⟨S496, .i32⟩ : BufTy).Contents (Elt F) → (⟨S496x1, .i32⟩ : BufTy).Contents (Elt F)) ]

/-- Stage 9 of the line (operations 135–136): the two columns side by side, the index table, and the gather of the product at it. -/
abbrev seg9 : List (HloOp τ sig (Elt F)) :=
  [ StableHlo.binary main_v31 main_v32 main_v33 ((fun a b => concatenate S496x2 1 [⟨S496x1, a⟩, ⟨S496x1, b⟩] concatenates_S496x1_S496x1_S496x2_d1) : (⟨S496x1, .i32⟩ : BufTy).Contents (Elt F) → (⟨S496x1, .i32⟩ : BufTy).Contents (Elt F) → (⟨S496x2, .i32⟩ : BufTy).Contents (Elt F)),
    StableHlo.binary main_v0 main_v33 main_v34 ((fun x i => Host.gather gather_S16384x32x32_S496x2_S16384x496_0_12_n_n_12_1_1638411 x i) : (⟨S16384x32x32, .f32⟩ : BufTy).Contents (Elt F) → (⟨S496x2, .i32⟩ : BufTy).Contents (Elt F) → (⟨S16384x496, .f32⟩ : BufTy).Contents (Elt F)) ]

/-- The line is its stages in order. -/
theorem ops_eq : (RefOps.ops : List (HloOp τ sig (Elt F))) = seg1 ++ (seg2 ++ (seg3 ++ (seg4 ++ (seg5 ++ (seg6 ++ (seg7 ++ (seg8 ++ (seg9)))))))) := rfl

/-! ## Each stage read back -/

attribute [local irreducible] Host.reduceWindow Host.gather Host.scatter in
set_option maxRecDepth 8192 in
/-- Stage 1 read back: run from contents at which the buffers it reads hold their terms, it leaves each
    buffer a later stage reads at its term. -/
theorem stage1 (V : Valuation τ sig (Elt F)) :
    after seg1 V (main_v0 : DevRef τ sig) = RefOps.val_main_v0 (V (main_arg0 : DevRef τ sig))
    ∧ after seg1 V (main_v5 : DevRef τ sig) = RefOps.val_main_v5 (F := F) := by
  refine ⟨?_, ?_⟩
  · after_results_simp
    rfl
  · after_results_simp
    simp only [TRef.toBuf, TRef.ofBuf]
    repeat rw [cast_eq]
    rfl

attribute [local irreducible] Host.reduceWindow Host.gather Host.scatter in
set_option maxRecDepth 8192 in
/-- Stage 2 read back: run from contents at which the buffers it reads hold their terms, it leaves each
    buffer a later stage reads at its term. -/
theorem stage2 (x : RefOps.Arr F ⟨S16384x32x64, .f32⟩)
    (W : Valuation τ sig (Elt F))
    (h_v0 : W (main_v0 : DevRef τ sig) = RefOps.val_main_v0 x)
    (h_v5 : W (main_v5 : DevRef τ sig) = RefOps.val_main_v5 (F := F)) :
    after seg2 W (main_v0 : DevRef τ sig) = RefOps.val_main_v0 x
    ∧ after seg2 W (main_v6 : DevRef τ sig) = RefOps.val_main_v6 (F := F)
    ∧ after seg2 W (main_v7 : DevRef τ sig) = RefOps.val_main_v7 (F := F) := by
  refine ⟨?_, ?_, ?_⟩
  · after_results_simp
    exact h_v0
  · after_results_simp
    rfl
  · after_results_simp
    rw [h_v5]
    simp only [TRef.toBuf, TRef.ofBuf]
    repeat rw [cast_eq]
    rfl

attribute [local irreducible] Host.reduceWindow Host.gather Host.scatter in
set_option maxRecDepth 8192 in
/-- Stage 3 read back: run from contents at which the buffers it reads hold their terms, it leaves each
    buffer a later stage reads at its term. -/
theorem stage3 (x : RefOps.Arr F ⟨S16384x32x64, .f32⟩)
    (W : Valuation τ sig (Elt F))
    (h_v0 : W (main_v0 : DevRef τ sig) = RefOps.val_main_v0 x)
    (h_v6 : W (main_v6 : DevRef τ sig) = RefOps.val_main_v6 (F := F))
    (h_v7 : W (main_v7 : DevRef τ sig) = RefOps.val_main_v7 (F := F)) :
    after seg3 W (main_v0 : DevRef τ sig) = RefOps.val_main_v0 x
    ∧ after seg3 W (main_v16 : DevRef τ sig) = RefOps.val_main_v16 (F := F) := by
  refine ⟨?_, ?_⟩
  · after_results_simp
    exact h_v0
  · after_results_simp
    rw [h_v6, h_v7]
    simp only [TRef.toBuf, TRef.ofBuf]
    repeat rw [cast_eq]
    rfl

attribute [local irreducible] Host.reduceWindow Host.gather Host.scatter in
set_option maxRecDepth 8192 in
/-- Stage 4 read back: run from contents at which the buffers it reads hold their terms, it leaves each
    buffer a later stage reads at its term. -/
theorem stage4 (x : RefOps.Arr F ⟨S16384x32x64, .f32⟩)
    (W : Valuation τ sig (Elt F))
    (h_v0 : W (main_v0 : DevRef τ sig) = RefOps.val_main_v0 x)
    (h_v16 : W (main_v16 : DevRef τ sig) = RefOps.val_main_v16 (F := F)) :
    after seg4 W (main_v0 : DevRef τ sig) = RefOps.val_main_v0 x
    ∧ after seg4 W (main_v16 : DevRef τ sig) = RefOps.val_main_v16 (F := F)
    ∧ after seg4 W (main_v17 : DevRef τ sig) = RefOps.val_main_v17 (F := F) := by
  refine ⟨?_, ?_, ?_⟩
  · after_results_simp
    exact h_v0
  · after_results_simp
    exact h_v16
  · after_results_simp
    rw [h_v16]
    simp only [TRef.toBuf, TRef.ofBuf]
    repeat rw [cast_eq]
    rfl

attribute [local irreducible] Host.reduceWindow Host.gather Host.scatter in
set_option maxRecDepth 8192 in
/-- Stage 5 read back: run from contents at which the buffers it reads hold their terms, it leaves each
    buffer a later stage reads at its term. -/
theorem stage5 (x : RefOps.Arr F ⟨S16384x32x64, .f32⟩)
    (W : Valuation τ sig (Elt F))
    (h_v0 : W (main_v0 : DevRef τ sig) = RefOps.val_main_v0 x)
    (h_v16 : W (main_v16 : DevRef τ sig) = RefOps.val_main_v16 (F := F))
    (h_v17 : W (main_v17 : DevRef τ sig) = RefOps.val_main_v17 (F := F)) :
    after seg5 W (main_v0 : DevRef τ sig) = RefOps.val_main_v0 x
    ∧ after seg5 W (main_v16 : DevRef τ sig) = RefOps.val_main_v16 (F := F)
    ∧ after seg5 W (main_v18 : DevRef τ sig) = RefOps.val_main_v18 (F := F) := by
  refine ⟨?_, ?_, ?_⟩
  · after_results_simp
    exact h_v0
  · after_results_simp
    exact h_v16
  · after_results_simp
    rw [h_v17]
    simp only [TRef.toBuf, TRef.ofBuf]
    repeat rw [cast_eq]
    rfl

attribute [local irreducible] Host.reduceWindow Host.gather Host.scatter in
set_option maxRecDepth 8192 in
/-- Stage 6 read back: run from contents at which the buffers it reads hold their terms, it leaves each
    buffer a later stage reads at its term. -/
theorem stage6 (x : RefOps.Arr F ⟨S16384x32x64, .f32⟩)
    (W : Valuation τ sig (Elt F))
    (h_v0 : W (main_v0 : DevRef τ sig) = RefOps.val_main_v0 x)
    (h_v16 : W (main_v16 : DevRef τ sig) = RefOps.val_main_v16 (F := F))
    (h_v18 : W (main_v18 : DevRef τ sig) = RefOps.val_main_v18 (F := F)) :
    after seg6 W (main_v0 : DevRef τ sig) = RefOps.val_main_v0 x
    ∧ after seg6 W (main_v18 : DevRef τ sig) = RefOps.val_main_v18 (F := F)
    ∧ after seg6 W (main_v19 : DevRef τ sig) = RefOps.val_main_v19 (F := F) := by
  refine ⟨?_, ?_, ?_⟩
  · after_results_simp
    exact h_v0
  · after_results_simp
    exact h_v18
  · after_results_simp
    rw [h_v16]
    simp only [TRef.toBuf, TRef.ofBuf]
    repeat rw [cast_eq]
    rfl

attribute [local irreducible] Host.reduceWindow Host.gather Host.scatter in
set_option maxRecDepth 8192 in
/-- Stage 7 read back: run from contents at which the buffers it reads hold their terms, it leaves each
    buffer a later stage reads at its term. -/
theorem stage7 (x : RefOps.Arr F ⟨S16384x32x64, .f32⟩)
    (W : Valuation τ sig (Elt F))
    (h_v0 : W (main_v0 : DevRef τ sig) = RefOps.val_main_v0 x)
    (h_v18 : W (main_v18 : DevRef τ sig) = RefOps.val_main_v18 (F := F))
    (h_v19 : W (main_v19 : DevRef τ sig) = RefOps.val_main_v19 (F := F)) :
    after seg7 W (main_v0 : DevRef τ sig) = RefOps.val_main_v0 x
    ∧ after seg7 W (main_v18 : DevRef τ sig) = RefOps.val_main_v18 (F := F)
    ∧ after seg7 W (main_v20 : DevRef τ sig) = RefOps.val_main_v20 (F := F) := by
  refine ⟨?_, ?_, ?_⟩
  · after_results_simp
    exact h_v0
  · after_results_simp
    exact h_v18
  · after_results_simp
    rw [h_v19]
    simp only [TRef.toBuf, TRef.ofBuf]
    repeat rw [cast_eq]
    rfl

attribute [local irreducible] Host.reduceWindow Host.gather Host.scatter in
set_option maxRecDepth 8192 in
/-- Stage 8 read back: run from contents at which the buffers it reads hold their terms, it leaves each
    buffer a later stage reads at its term. -/
theorem stage8 (x : RefOps.Arr F ⟨S16384x32x64, .f32⟩)
    (W : Valuation τ sig (Elt F))
    (h_v0 : W (main_v0 : DevRef τ sig) = RefOps.val_main_v0 x)
    (h_v18 : W (main_v18 : DevRef τ sig) = RefOps.val_main_v18 (F := F))
    (h_v20 : W (main_v20 : DevRef τ sig) = RefOps.val_main_v20 (F := F)) :
    after seg8 W (main_v0 : DevRef τ sig) = RefOps.val_main_v0 x
    ∧ after seg8 W (main_v31 : DevRef τ sig) = RefOps.val_main_v31 (F := F)
    ∧ after seg8 W (main_v32 : DevRef τ sig) = RefOps.val_main_v32 (F := F) := by
  refine ⟨?_, ?_, ?_⟩
  · after_results_simp
    exact h_v0
  · after_results_simp
    rw [h_v18]
    rfl
  · after_results_simp
    rw [h_v20]
    rfl

attribute [local irreducible] Host.reduceWindow Host.gather Host.scatter in
set_option maxRecDepth 8192 in
/-- Stage 9 read back: run from contents at which the buffers it reads hold their terms, it leaves each
    buffer a later stage reads at its term. -/
theorem stage9 (x : RefOps.Arr F ⟨S16384x32x64, .f32⟩)
    (W : Valuation τ sig (Elt F))
    (h_v0 : W (main_v0 : DevRef τ sig) = RefOps.val_main_v0 x)
    (h_v31 : W (main_v31 : DevRef τ sig) = RefOps.val_main_v31 (F := F))
    (h_v32 : W (main_v32 : DevRef τ sig) = RefOps.val_main_v32 (F := F)) :
    after seg9 W (main_v34 : DevRef τ sig) = RefOps.val_main_v34 x := by
  after_results_simp
  rw [h_v0, h_v31, h_v32]
  rfl

/-! ## The whole line read back -/

/-- The result buffer after the whole line: the stages chained, each handing the next the buffers it reads. -/
theorem out_eq (V : Valuation τ sig (Elt F)) :
    after RefOps.ops V (main_v34 : DevRef τ sig) = RefOps.val_main_v34 (V (main_arg0 : DevRef τ sig)) := by
  rw [ops_eq]
  simp only [after_append]
  obtain ⟨h_v0, h_v5⟩ := stage1 V
  obtain ⟨h_v0, h_v6, h_v7⟩ := stage2 _ _ h_v0 h_v5
  obtain ⟨h_v0, h_v16⟩ := stage3 _ _ h_v0 h_v6 h_v7
  obtain ⟨h_v0, h_v16, h_v17⟩ := stage4 _ _ h_v0 h_v16
  obtain ⟨h_v0, h_v16, h_v18⟩ := stage5 _ _ h_v0 h_v16 h_v17
  obtain ⟨h_v0, h_v18, h_v19⟩ := stage6 _ _ h_v0 h_v16 h_v18
  obtain ⟨h_v0, h_v18, h_v20⟩ := stage7 _ _ h_v0 h_v18 h_v19
  obtain ⟨h_v0, h_v31, h_v32⟩ := stage8 _ _ h_v0 h_v18 h_v20
  exact stage9 _ _ h_v0 h_v31 h_v32

set_option maxRecDepth 16384 in
/-- No operation of the line writes the argument buffer. -/
theorem arg0_eq (V : Valuation τ sig (Elt F)) :
    after RefOps.ops V (main_arg0 : DevRef τ sig) = V (main_arg0 : DevRef τ sig) := by
  simp only [after_cons, after_nil]
  rfl

/-! ## The run -/

set_option maxRecDepth 16384 in
/-- On every device, for any float values, from any memory with zero counters: every weakly fair execution of @main
    terminates, and every final state has each TensorCore buffer at the line's fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after RefOps.ops (launchContents m c) (b : DevRef τ sig) :=
  run_seq scopedRefs_eq scopedSems_eq defs main (fun _ => RefOps.ops) main_eq (fun _ => ops_sub) m ρ

/-- The same with the result read back: every final state holds in the result buffer the batched product of the
    argument with itself gathered at the table of index pairs (`RefOps.val_main_v34` of the argument's launch
    contents), and the argument buffer is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = RefOps.val_main_v34 (m ((c.tc : Thread nD τ).loc main_arg0))
      ∧ r.2.mem ((c.tc : Thread nD τ).loc main_arg0) = m ((c.tc : Thread nD τ).loc main_arg0) :=
  (θ_run defs _ _).mono (fun _ h c => ⟨(h c main_v34).trans (out_eq _), (h c main_arg0).trans (arg0_eq _)⟩)
    (run_all m ρ)

end Cert.ReferenceIdeal.RefRun

end
-- ==== Proof.RefValue.lean ====
/-
  The reference's result as the same function of its argument. Its @main multiplies the argument with itself into the
  stack of Gram matrices (a batched `dot_general` contracting the 64 embedding coordinates) and gathers, for each of the
  496 positions p, entry (iu[p], ju[p]) of every matrix, the index pairs read off a table that the program computes from
  no input. Given what that table holds — the pair (rowOf p, colOf p) at row p — the gather reads entry
  (rowOf p, colOf p): the start indices are non-negative and below 32, so reading them signed and clamping them to the
  matrix changes nothing. Entry (b, p) of the result is therefore ∑ e, x[b, rowOf p, e] · x[b, colOf p, e].
-/
import proofs.«140735_j6227702579222_2_alg».proof.Proof.RefOps
import proofs.«140735_j6227702579222_2_alg».proof.Proof.GramSpec
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.PairOrder

/-- The product's dimension numbers: batch axis 0, free axis 1 on both sides, contracted axis 2 on both sides. -/
local notation "D" => dot_S16384x32x64_S16384x32x64_S16384x32x32_2_2_1_1_0_0
/-- The gather's dimension numbers: axis 0 of the operand is taken whole, axes 1 and 2 are addressed by the two
    components of a start index and collapsed. -/
local notation "GD" => gather_S16384x32x32_S496x2_S16384x496_0_12_n_n_12_1_1638411

/-! ## The stack of Gram matrices at an entry -/

theorem lhs_0 (i : S16384x32x32.Idx) (q : (D).contr.Idx) : ((D).lhsIdx i q 0).val = (i 0).val := by
  unfold DotDims.lhsIdx
  rw [dif_pos (show (0 : Fin S16384x32x64.rank) ∈ (D).lhsBatch by decide)]
  rfl
theorem lhs_1 (i : S16384x32x32.Idx) (q : (D).contr.Idx) : ((D).lhsIdx i q 1).val = (i 1).val := by
  unfold DotDims.lhsIdx
  rw [dif_neg (show ¬(1 : Fin S16384x32x64.rank) ∈ (D).lhsBatch by decide), dif_pos (show (1 : Fin S16384x32x64.rank) ∈ (D).lhsNonContracting by decide)]
  rfl
theorem lhs_2 (i : S16384x32x32.Idx) (q : (D).contr.Idx) : ((D).lhsIdx i q 2).val = (q ⟨0, by decide⟩).val :=
  (D).lhsIdx_val_of_single rfl i q
theorem rhs_0 (i : S16384x32x32.Idx) (q : (D).contr.Idx) : ((D).rhsIdx i q 0).val = (i 0).val := by
  unfold DotDims.rhsIdx
  rw [dif_pos (show (0 : Fin S16384x32x64.rank) ∈ (D).rhsBatch by decide)]
  rfl
theorem rhs_1 (i : S16384x32x32.Idx) (q : (D).contr.Idx) : ((D).rhsIdx i q 1).val = (i 2).val := by
  unfold DotDims.rhsIdx
  rw [dif_neg (show ¬(1 : Fin S16384x32x64.rank) ∈ (D).rhsBatch by decide), dif_pos (show (1 : Fin S16384x32x64.rank) ∈ (D).rhsNonContracting by decide)]
  rfl
theorem rhs_2 (i : S16384x32x32.Idx) (q : (D).contr.Idx) : ((D).rhsIdx i q 2).val = (q ⟨0, by decide⟩).val :=
  (D).rhsIdx_val_of_single rfl i q

/-- The host's batched product of the argument with itself is the stack of Gram matrices. -/
theorem gram_eq (x : S16384x32x64.Idx → EReal) : RefOps.val_main_v0 (F := Ideal) x = gramOf x := by
  funext q
  obtain ⟨b, i, j, rfl⟩ : ∃ (b : Fin 16384) (i j : Fin 32), q = ix3 b i j := ⟨q 0, q 1, q 2, eq_ix3 q⟩
  rw [gramOf_apply]
  unfold RefOps.val_main_v0
  simp only [Host.dotGeneral]
  rw [Ideal.dotGeneral_apply, ← Equiv.sum_comp (contrEquiv1 (D) 64 rfl rfl).symm]
  refine Finset.sum_congr rfl fun k _ => ?_
  have hk := contrEquiv1_symm_val (D) 64 rfl rfl k
  have el : (D).lhsIdx (ix3 b i j) ((contrEquiv1 (D) 64 rfl rfl).symm k) = ix3 b i k := funext fun a => Fin.ext (by
    match a with
    | ⟨0, _⟩ => exact lhs_0 _ _
    | ⟨1, _⟩ => exact lhs_1 _ _
    | ⟨2, _⟩ => exact (lhs_2 _ _).trans hk)
  have er : (D).rhsIdx (ix3 b i j) ((contrEquiv1 (D) 64 rfl rfl).symm k) = ix3 b j k := funext fun a => Fin.ext (by
    match a with
    | ⟨0, _⟩ => exact rhs_0 _ _
    | ⟨1, _⟩ => exact rhs_1 _ _
    | ⟨2, _⟩ => exact (rhs_2 _ _).trans hk)
  rw [el, er]

/-! ## The gather at an entry -/

/-- A start index below 32, read signed and clamped to a matrix axis, is itself. -/
theorem clamp_small : ∀ n : Fin 32, min (BitVec.ofNat 32 n.val).toInt.toNat (32 - 1) = n.val := by decide

/-- The operand index the gather reads at result index `(b, p)`, axis by axis: matrix `b`, then the two components of
    start index `p`, each read signed and clamped to `[0, 31]`. -/
theorem opIdx_0 (idx : IVec S496x2 32) (b : Fin 16384) (p : Fin 496) :
    ((GD).operandIdx (ix2 b p) idx 0).val = b.val := by
  show (GD).start (ix2 b p) idx 0 + (GD).batchCoord (ix2 b p) 0 + (GD).offCoord (ix2 b p) 0 = _
  rw [GatherDims.batchCoord_eq_zero _ _ _ List.not_mem_nil, Nat.add_zero]
  unfold GatherDims.start GatherDims.offCoord
  rw [dif_neg (show ¬(0 : Fin S16384x32x32.rank) ∈ (GD).startIndexMap by decide),
    dif_pos (show (0 : Fin S16384x32x32.rank) ∈ (GD).sKept by decide), Nat.zero_add]
  rfl
theorem opIdx_1 (idx : IVec S496x2 32) (b : Fin 16384) (p : Fin 496) :
    ((GD).operandIdx (ix2 b p) idx 1).val = min (idx (ix2 p (0 : Fin 2))).toInt.toNat (32 - 1) := by
  show (GD).start (ix2 b p) idx 1 + (GD).batchCoord (ix2 b p) 1 + (GD).offCoord (ix2 b p) 1 = _
  rw [GatherDims.batchCoord_eq_zero _ _ _ List.not_mem_nil, Nat.add_zero]
  unfold GatherDims.start GatherDims.offCoord
  rw [dif_pos (show (1 : Fin S16384x32x32.rank) ∈ (GD).startIndexMap by decide),
    dif_neg (show ¬(1 : Fin S16384x32x32.rank) ∈ (GD).sKept by decide), Nat.add_zero]
  have hsi : (GD).siIdx (ix2 b p) ⟨List.idxOf (1 : Fin S16384x32x32.rank) (GD).startIndexMap,
      List.idxOf_lt_length_iff.2 (by decide)⟩ = ix2 p (0 : Fin 2) := by
    funext b'; refine Fin.ext ?_
    match b' with
    | ⟨0, _⟩ => rfl
    | ⟨1, _⟩ => rfl
  rw [hsi]
  rfl
theorem opIdx_2 (idx : IVec S496x2 32) (b : Fin 16384) (p : Fin 496) :
    ((GD).operandIdx (ix2 b p) idx 2).val = min (idx (ix2 p (1 : Fin 2))).toInt.toNat (32 - 1) := by
  show (GD).start (ix2 b p) idx 2 + (GD).batchCoord (ix2 b p) 2 + (GD).offCoord (ix2 b p) 2 = _
  rw [GatherDims.batchCoord_eq_zero _ _ _ List.not_mem_nil, Nat.add_zero]
  unfold GatherDims.start GatherDims.offCoord
  rw [dif_pos (show (2 : Fin S16384x32x32.rank) ∈ (GD).startIndexMap by decide),
    dif_neg (show ¬(2 : Fin S16384x32x32.rank) ∈ (GD).sKept by decide), Nat.add_zero]
  have hsi : (GD).siIdx (ix2 b p) ⟨List.idxOf (2 : Fin S16384x32x32.rank) (GD).startIndexMap,
      List.idxOf_lt_length_iff.2 (by decide)⟩ = ix2 p (1 : Fin 2) := by
    funext b'; refine Fin.ext ?_
    match b' with
    | ⟨0, _⟩ => rfl
    | ⟨1, _⟩ => rfl
  rw [hsi]
  rfl

/-- The gather at result index `(b, p)` reads matrix `b` at the entry the table's row `p` names. -/
theorem gather_apply {α : Type} (X : S16384x32x32.Idx → α) (idx : IVec S496x2 32) (b : Fin 16384) (p : Fin 496)
    (i j : Fin 32) (hi : idx (ix2 p (0 : Fin 2)) = BitVec.ofNat 32 i.val) (hj : idx (ix2 p (1 : Fin 2)) = BitVec.ofNat 32 j.val) :
    Host.gather (GD) X idx (ix2 b p) = X (ix3 b i j) := by
  unfold Host.gather
  refine congrArg X (funext fun a => Fin.ext ?_)
  match a with
  | ⟨0, _⟩ => exact opIdx_0 idx b p
  | ⟨1, _⟩ => exact (opIdx_1 idx b p).trans (by rw [hi]; exact clamp_small i)
  | ⟨2, _⟩ => exact (opIdx_2 idx b p).trans (by rw [hj]; exact clamp_small j)

/-! ## The result -/

/-- The reference's result term is `pairProducts` of the argument, given the index table's rows. -/
theorem result_eq_of_table
    (htab : ∀ p : Fin 496, RefOps.val_main_v33 (F := Ideal) (ix2 p (0 : Fin 2)) = BitVec.ofNat 32 (rowOf p.val)
      ∧ RefOps.val_main_v33 (F := Ideal) (ix2 p (1 : Fin 2)) = BitVec.ofNat 32 (colOf p.val))
    (x : S16384x32x64.Idx → EReal) : RefOps.val_main_v34 (F := Ideal) x = pairProducts x := by
  funext y
  obtain ⟨b, p, rfl⟩ : ∃ (b : Fin 16384) (p : Fin 496), y = ix2 b p := ⟨y 0, y 1, eq_ix2 y⟩
  unfold RefOps.val_main_v34
  show Host.gather (GD) (RefOps.val_main_v0 (F := Ideal) x) (RefOps.val_main_v33 (F := Ideal)) (ix2 b p) = _
  rw [gather_apply _ _ b p (rowFin p) (colFin p) (htab p).1 (htab p).2, gram_eq]
  rfl

end Cert.ReferenceIdeal.RefValue

end
-- ==== Proof.PairCount.lean ====
/-
  Counting along the strict upper triangle of a 32 × 32 matrix laid out row-major on 1024 flat positions. The mask is
  true at flat position k = 32 r + c when r < c. The number of true positions at or before k has a closed form: all of
  the rows before row r, and in row r the columns r + 1, …, c. It rises by one exactly at the true positions, so the
  number of flat positions whose count is at most p is the flat position of the (p + 1)-st true position: the pair at
  place p of the row-by-row order.
-/
import proofs.«140735_j6227702579222_2_alg».proof.Proof.PairOrder
import Mathlib.Data.Fintype.Fin
import Mathlib.Order.Monotone.Basic
import Mathlib.Algebra.BigOperators.Group.Finset.Basic

open scoped BigOperators

namespace Cert.PairCount

open Cert.PairOrder

/-- The mask at flat position `k`: row below column. -/
def msk (k : Nat) : Bool := decide (k / 32 < k % 32)

/-- The number of true positions at or before flat position `k`. -/
def cnt (k : Nat) : Nat := rowStart (k / 32) + (k % 32 - k / 32)

theorem cnt_zero : cnt 0 = 0 := by decide
theorem msk_zero : msk 0 = false := by decide

/-- The count rises by one at a true position and stays at a false one. -/
theorem cnt_succ : ∀ k : Fin 1023, cnt (k.val + 1) = cnt k.val + (if msk (k.val + 1) then 1 else 0) := by decide

/-- The pair at place `p` sits at a true flat position, the `(p + 1)`-st. -/
theorem cnt_at_pair : ∀ p : Fin 496, 32 * rowOf p.val + colOf p.val < 1024
    ∧ msk (32 * rowOf p.val + colOf p.val) = true ∧ cnt (32 * rowOf p.val + colOf p.val) = p.val + 1 := by decide

/-- No count exceeds the number of pairs. -/
theorem cnt_le : ∀ k : Fin 1024, cnt k.val ≤ 496 := by decide

theorem cnt_mono_step (k : Nat) : cnt (min k 1023) ≤ cnt (min (k + 1) 1023) := by
  by_cases h : k < 1023
  · have h1 := cnt_succ ⟨k, h⟩
    rw [Nat.min_eq_left (by omega), Nat.min_eq_left (by omega)]
    have h2 : cnt (k + 1) = cnt k + (if msk (k + 1) then 1 else 0) := h1
    omega
  · rw [Nat.min_eq_right (by omega), Nat.min_eq_right (by omega)]

/-- The count is monotone along the flat positions. -/
theorem cnt_mono {a b : Nat} (hab : a ≤ b) (hb : b ≤ 1023) : cnt a ≤ cnt b := by
  have h := monotone_nat_of_le_succ cnt_mono_step hab
  rw [Nat.min_eq_left (show a ≤ 1023 by omega), Nat.min_eq_left hb] at h
  exact h

/-- THE COUNTING STEP: the flat positions whose count is at most `p` are those before the pair at place `p`. -/
theorem card_cnt_le (p : Fin 496) :
    (Finset.univ.filter (fun k : Fin 1024 => cnt k.val ≤ p.val)).card = 32 * rowOf p.val + colOf p.val := by
  obtain ⟨hlt, hm, hc⟩ := cnt_at_pair p
  generalize 32 * rowOf p.val + colOf p.val = ks at hlt hm hc ⊢
  have hpos : 0 < ks := by
    rcases Nat.eq_zero_or_pos ks with h0 | h0
    · rw [h0, msk_zero] at hm; exact absurd hm (by decide)
    · exact h0
  have hprev : cnt (ks - 1) = p.val := by
    have h1 := cnt_succ ⟨ks - 1, by omega⟩
    have h2 : cnt (ks - 1 + 1) = cnt (ks - 1) + (if msk (ks - 1 + 1) then 1 else 0) := h1
    rw [show ks - 1 + 1 = ks by omega, hm, hc] at h2
    simp at h2; omega
  have hset : (Finset.univ.filter (fun k : Fin 1024 => cnt k.val ≤ p.val))
      = Finset.univ.filter (fun k : Fin 1024 => k.val < ks) := by
    ext k
    simp only [Finset.mem_filter, Finset.mem_univ, true_and]
    have hk := k.isLt
    constructor
    · intro hle
      by_contra hge
      have := cnt_mono (show ks ≤ k.val by omega) (by omega)
      omega
    · intro hk'
      have := cnt_mono (show k.val ≤ ks - 1 by omega) (by omega)
      omega
  rw [hset, Fin.card_filter_val_lt]
  omega

/-- The flat positions with count at most `p`, sorted by their count. -/
theorem sum_card_fiber (p : Nat) :
    ∑ v ∈ Finset.range (p + 1), (Finset.univ.filter (fun k : Fin 1024 => cnt k.val = v)).card
      = (Finset.univ.filter (fun k : Fin 1024 => cnt k.val ≤ p)).card := by
  rw [Finset.card_eq_sum_card_fiberwise (f := fun k : Fin 1024 => cnt k.val) (t := Finset.range (p + 1))]
  · refine Finset.sum_congr rfl (fun v hv => ?_)
    congr 1
    ext k
    simp only [Finset.mem_filter, Finset.mem_univ, true_and, Finset.mem_range] at hv ⊢
    constructor
    · intro h; exact ⟨by omega, h⟩
    · intro h; exact h.2
  · intro k hk
    simp only [Finset.coe_filter, Finset.mem_univ, true_and, Set.mem_setOf_eq, Finset.coe_range, Set.mem_Iio] at hk ⊢
    omega

end Cert.PairCount
-- ==== Proof.LibCumsum.lean ====
/-
  A running sum written as a padded window reduction. The window reduction of a rank-1 array of extent n with a window
  of n positions, stride one and n − 1 padding positions in front folds, at result position j, over the window positions
  w = 0, …, n − 1 the operand at j + w − (n − 1) where that is not negative and the initial value otherwise. With
  addition and initial value zero that is the sum of the operand's entries 0, …, j.
-/
import Idealize.ShloMosaic.Lib.ValueIdx
import Idealize.ShloMosaic.PureOps.Contract
import Mathlib.Algebra.BigOperators.Fin
import Mathlib.Algebra.BigOperators.Intervals
import Mathlib.Data.BitVec

open scoped BigOperators

namespace Cert.LibCumsum

open Idealize.ShloMosaic Idealize.ShloMosaic.ValueIdx

/-- A left fold that adds one term per list entry is the start value plus the sum of the terms. -/
theorem foldl_add_eq_sum {M ι : Type*} [AddCommMonoid M] (g : ι → M) (l : List ι) (v : M) :
    l.foldl (fun r a => r + g a) v = v + (l.map g).sum := by
  induction l generalizing v with
  | nil => simp
  | cons a l ih => simp [ih, add_assoc]

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A left fold over all row-major positions of a rank-1 shape that adds one term per position is the start value
    plus the sum of the terms over the coordinates. -/
theorem foldl_finRange_rank1 {M : Type*} [AddCommMonoid M] {n : Nat} (G : Fin (⟨1, ![n]⟩ : Shape).numel → M) (v : M) :
    (List.finRange (⟨1, ![n]⟩ : Shape).numel).foldl (fun r k => r + G k) v
      = v + ∑ a : Fin n, G ((⟨1, ![n]⟩ : Shape).rowMajor (ix1 a)) := by
  rw [foldl_add_eq_sum G, ← Fin.sum_univ_def, ← Equiv.sum_comp (⟨1, ![n]⟩ : Shape).rowMajor G,
    ← Equiv.sum_comp (idxEquiv1 (n := n)).symm (fun i => G ((⟨1, ![n]⟩ : Shape).rowMajor i))]
  rfl

/-- The entry `k` of a rank-1 array, zero past its end. -/
def ext0 {w n : Nat} (x : (⟨1, ![n]⟩ : Shape).Idx → BitVec w) (k : Nat) : BitVec w :=
  if h : k < n then x (ix1 ⟨k, h⟩) else 0

theorem ext0_val {w n : Nat} (x : (⟨1, ![n]⟩ : Shape).Idx → BitVec w) (k : Fin n) : ext0 x k.val = x (ix1 k) := by
  unfold ext0; rw [dif_pos k.isLt]

/-- THE RUNNING SUM: the window reduction by addition with a window of `n` positions, stride one, `n − 1` padding
    positions in front and initial value zero, read at `j`, is the sum of the operand's entries `0, …, j`. -/
theorem reduceWindow_cumsum {w n : Nat} (m : Nat) (hm : m + 1 = n) (x : (⟨1, ![n]⟩ : Shape).Idx → BitVec w)
    (init : (⟨0, ![]⟩ : Shape).Idx → BitVec w)
    (h : (⟨1, ![n]⟩ : Shape).ReduceWindows (![n] : Fin 1 → Nat) ![1] ![m] ![0] ⟨1, ![n]⟩)
    (hu : 0 < (⟨0, ![]⟩ : Shape).numel) (hinit : init (Shape.Idx.first hu) = 0) (j : Fin n) :
    Host.reduceWindow (s := ⟨1, ![n]⟩) (t := ⟨1, ![n]⟩) (u := ⟨0, ![]⟩) IntOp.addi ![n] ![1] ![m] ![0] x init h hu (ix1 j)
      = ∑ k ∈ Finset.range (j.val + 1), ext0 x k := by
  unfold Host.reduceWindow
  simp only [hinit, IntOp.addi]
  refine (foldl_finRange_rank1 _ 0).trans ?_
  simp only [Equiv.symm_apply_apply, zero_add]
  have hj := j.isLt
  -- each window position's term, by the operand position it reads
  have hterm : ∀ a : Fin n,
      (if h_1 : ∀ (a_1 : Fin 1), ![m] a_1 ≤ ↑(ix1 j (Fin.cast h.1.symm a_1)) * ![1] a_1 + ↑(ix1 a a_1) ∧
          ↑(ix1 j (Fin.cast h.1.symm a_1)) * ![1] a_1 + ↑(ix1 a a_1) - ![m] a_1 < ![n] a_1 then
        x fun a_1 => ⟨↑(ix1 j (Fin.cast h.1.symm a_1)) * ![1] a_1 + ↑(ix1 a a_1) - ![m] a_1, (h_1 a_1).2⟩
      else 0) = if m ≤ j.val + a.val then ext0 x (j.val + a.val - m) else 0 := by
    intro a
    have ha := a.isLt
    by_cases hc : m ≤ j.val + a.val
    · have hC : ∀ (a_1 : Fin 1), ![m] a_1 ≤ ↑(ix1 j (Fin.cast h.1.symm a_1)) * ![1] a_1 + ↑(ix1 a a_1) ∧
          ↑(ix1 j (Fin.cast h.1.symm a_1)) * ![1] a_1 + ↑(ix1 a a_1) - ![m] a_1 < ![n] a_1 := by
        intro a_1
        obtain rfl : a_1 = 0 := Subsingleton.elim _ _
        show m ≤ j.val * 1 + a.val ∧ j.val * 1 + a.val - m < n
        omega
      rw [dif_pos hC, if_pos hc]
      unfold ext0
      rw [dif_pos (by omega)]
      congr 1
      funext a_1
      obtain rfl : a_1 = 0 := Subsingleton.elim _ _
      apply Fin.ext
      show j.val * 1 + a.val - m = j.val + a.val - m
      omega
    · rw [dif_neg, if_neg hc]
      intro hC
      have h0 := (hC 0).1
      have : m ≤ j.val * 1 + a.val := h0
      omega
  rw [Finset.sum_congr rfl (fun a _ => hterm a),
    Fin.sum_univ_eq_sum_range (fun a => if m ≤ j.val + a then ext0 x (j.val + a - m) else 0) n, ← Finset.sum_filter]
  refine Finset.sum_nbij' (fun a => j.val + a - m) (fun k => k + m - j.val) ?_ ?_ ?_ ?_ ?_
  · intro a ha; simp only [Finset.mem_filter, Finset.mem_range] at ha ⊢; omega
  · intro k hk; simp only [Finset.mem_filter, Finset.mem_range] at hk ⊢; omega
  · intro a ha; simp only [Finset.mem_filter, Finset.mem_range] at ha; omega
  · intro k hk; simp only [Finset.mem_range] at hk; omega
  · intro a _; rfl

end Cert.LibCumsum
-- ==== Proof.LibScatter.lean ====
/-
  A scatter that adds, read at one index. The scatter folds over the update positions in row-major order, adding each
  update to the operand entry its index lands on and dropping the updates that land outside. Addition being
  commutative and associative, the entry at an index ends as its start value plus the sum of the updates landing on it.
-/
import Idealize.ShloMosaic.Lib.ValueIdx
import Idealize.ShloMosaic.PureOps.ShapeOps
import Mathlib.Algebra.BigOperators.Fin
import Mathlib.Data.BitVec

open scoped BigOperators

namespace Cert.LibScatter

open Idealize.ShloMosaic Idealize.ShloMosaic.ValueIdx

/-- THE ADDING SCATTER AT AN INDEX: the operand's entry plus the sum, over all update indices, of the updates whose
    result index is this one. -/
theorem scatter_addi_apply {s si u : Shape} {w wi : Nat} (d : ScatterDims s si u) (x : s.Idx → BitVec w)
    (idx : IVec si wi) (upd : u.Idx → BitVec w) (i : s.Idx) :
    Host.scatter d IntOp.addi x idx upd i
      = x i + ∑ j : u.Idx, (if d.resultIdx? j idx = some i then upd j else 0) := by
  unfold Host.scatter
  have key : ∀ (l : List (Fin u.numel)) (r : s.Idx → BitVec w),
      (l.foldl (fun r n =>
        match d.resultIdx? (u.rowMajor.symm n) idx with
        | some i => fun i' => if i' = i then IntOp.addi (r i) (upd (u.rowMajor.symm n)) else r i'
        | none => r) r) i
      = r i + (l.map fun n => if d.resultIdx? (u.rowMajor.symm n) idx = some i then upd (u.rowMajor.symm n) else 0).sum := by
    intro l
    induction l with
    | nil => intro r; simp
    | cons a l ih =>
      intro r
      rw [List.foldl_cons, ih, List.map_cons, List.sum_cons, ← add_assoc]
      congr 1
      cases hres : d.resultIdx? (u.rowMajor.symm a) idx with
      | none => simp
      | some i0 =>
        by_cases hi : i = i0
        · subst hi; simp [IntOp.addi]
        · have : ¬ (some i0 = some i) := fun h => hi (Option.some.inj h).symm
          simp [hi, this]
  refine (key (List.finRange u.numel) x).trans ?_
  rw [← Fin.sum_univ_def,
    Equiv.sum_comp u.rowMajor.symm (fun j => if d.resultIdx? j idx = some i then upd j else 0)]

end Cert.LibScatter
-- ==== Proof.PairTable.lean ====
/-
  The table of index pairs the reference's final gather reads: row p holds the pair (i, j), i < j < 32, at place p of the
  strict upper triangle listed row by row. The reference computes it from no input: the triangle's mask, flattened to
  1024 zero-or-one words; its running sum (the count of true positions so far); a bincount of the counts (entry v: the
  number of flat positions whose count is v); the running sum of that (entry p: the number of flat positions whose
  count is at most p, which is the flat position 32 i + j of the (p + 1)-st true position); and floor division and
  remainder by 32, with sign fix-ups that do nothing on these small non-negative words. Each stage is read here at one
  index, the two running sums and the bincount through general lemmas, the counting through the closed form of the count.
-/
import proofs.«140735_j6227702579222_2_alg».proof.Proof.RefOps
import proofs.«140735_j6227702579222_2_alg».proof.Proof.PairOrder
import proofs.«140735_j6227702579222_2_alg».proof.Proof.PairCount
import proofs.«140735_j6227702579222_2_alg».proof.Proof.LibCumsum
import proofs.«140735_j6227702579222_2_alg».proof.Proof.LibScatter
import Idealize.ShloMosaic.Lib.ValueIdx
import Idealize.ShloMosaic.Lib.IdealHost
import Idealize.ShloMosaic.Lib.Pipeline.Value
import Mathlib.Data.BitVec
noncomputable section
open scoped BigOperators
namespace Cert.ReferenceIdeal.PairTable
open Idealize.ShloMosaic Idealize.ShloMosaic.ValueIdx Cert.ReferenceIdeal Cert.ReferenceIdeal.Gen Cert.PairOrder Cert.PairCount Cert.ReferenceIdeal.RefOps

/-! ## The mask -/

/-- The integer comparison of the mask, on the two coordinates. -/
theorem sge_at : ∀ r c : Fin 32,
    IntOp.cmpi .sge (IntOp.addi (BitVec.ofNat 32 r.val) 0#32) (BitVec.ofNat 32 c.val) = if r.val < c.val then 0#1 else 1#1 := by
  decide

theorem f32_zero : Ideal.ofBits .f32 0#32 = 0 := by simp [Ideal.ofBits, Ideal.ieee]
theorem f32_one : Ideal.ofBits .f32 1065353216#32 = 1 := by simp [Ideal.ofBits, Ideal.ieee, -EReal.coe_mul]; norm_num

/-- The mask's entry at (r, c): the bit of r < c. -/
theorem mask_at (r c : Fin 32) :
    val_main_v4 (F := Ideal) (ix2 r c) = if r.val < c.val then 1#1 else 0#1 := by
  unfold val_main_v4 val_main_v2 val_main_v3 val_main_cst_0 val_main_call0_v4 val_main_call0_v5 val_main_v1 val_main_call0_cst val_main_cst
    val_main_call0_v2 val_main_call0_v3 val_main_call0_v0 val_main_call0_v1 val_main_call0_c
  rw [cmpf_apply, select_apply]
  show Ideal.cmp .une (Scalar.select (IntOp.cmpi .sge (IntOp.addi (BitVec.ofNat 32 r.val) 0#32) (BitVec.ofNat 32 c.val))
      (Ideal.ofBits .f32 0#32) (Ideal.ofBits .f32 1065353216#32)) (Ideal.ofBits .f32 0#32) = _
  rw [sge_at, f32_zero, f32_one]
  by_cases h : r.val < c.val
  · rw [if_pos h, if_pos h, select_zero]
    simp [Ideal.cmp]
  · rw [if_neg h, if_neg h, select_one]
    simp [Ideal.cmp]

/-- The flattened mask as 32-bit words: one at the true positions, zero elsewhere. -/
theorem x_at (k : Fin 1024) : val_main_call1_v1 (F := Ideal) (ix1 k) = if msk k.val then 1#32 else 0#32 := by
  have hk := k.isLt
  show (shapeCast S1024 (val_main_v4 (F := Ideal)) shapeCasts_S32x32_S1024 (ix1 k)).setWidth 32 = _
  rw [shapeCast_apply _ _ (ix1 k) (ix2 (⟨k.val / 32, by omega⟩ : Fin 32) (⟨k.val % 32, by omega⟩ : Fin 32))
    (by rw [Shape.rowMajor_val_two, Shape.rowMajor_val_one]; show k.val / 32 * 32 + k.val % 32 = k.val; omega), mask_at]
  unfold msk
  by_cases h : k.val / 32 < k.val % 32
  · simp [h]
  · simp [h]

/-! ## The running count -/

/-- The partial sums of the flattened mask are the counts. -/
theorem sum_x (k : Nat) (hk : k < 1024) :
    ∑ k' ∈ Finset.range (k + 1), LibCumsum.ext0 (val_main_call1_v1 (F := Ideal)) k' = BitVec.ofNat 32 (cnt k) := by
  induction k with
  | zero =>
    rw [Finset.sum_range_one, LibCumsum.ext0_val _ (⟨0, hk⟩ : Fin 1024), x_at]
    rfl
  | succ k ih =>
    rw [Finset.sum_range_succ, ih (by omega), LibCumsum.ext0_val _ (⟨k + 1, hk⟩ : Fin 1024), x_at]
    have h := cnt_succ ⟨k, by omega⟩
    have h2 : cnt (k + 1) = cnt k + (if msk (k + 1) then 1 else 0) := h
    rw [h2]
    show BitVec.ofNat 32 (cnt k) + (if msk (k + 1) = true then 1#32 else 0#32) = _
    cases msk (k + 1)
    · simp
    · simp [BitVec.ofNat_add]

/-- The running sum of the flattened mask at flat position `k`: the count. -/
theorem cs_at (k : Fin 1024) : val_main_v5 (F := Ideal) (ix1 k) = BitVec.ofNat 32 (cnt k.val) := by
  show Host.reduceWindow IntOp.addi ![1024] ![1] ![1023] ![0] (val_main_call1_v1 (F := Ideal))
    (val_main_call1_call0_v0 (F := Ideal)) reduceWindows_S1024_S1024_w1024s1p1023_0 h_S_ (ix1 k) = _
  rw [LibCumsum.reduceWindow_cumsum 1023 rfl _ _ _ _ rfl k, sum_x k.val k.isLt]

/-- On a count, clamping below at zero changes nothing. -/
theorem maxsi_small : ∀ n : Fin 497, IntOp.maxsi 0#32 (BitVec.ofNat 32 n.val) = BitVec.ofNat 32 n.val := by decide
/-- On a count, wrapping a negative index changes nothing. -/
theorem wrap_small : ∀ n : Fin 497,
    Scalar.select (IntOp.cmpi .slt (BitVec.ofNat 32 n.val) 0#32) (IntOp.addi (BitVec.ofNat 32 n.val) 496#32) (BitVec.ofNat 32 n.val)
      = BitVec.ofNat 32 n.val := by decide

/-- Clamped below at zero: still the count. -/
theorem v7_at (k : Fin 1024) : val_main_v7 (F := Ideal) (ix1 k) = BitVec.ofNat 32 (cnt k.val) := by
  have hc : cnt k.val < 497 := by have := cnt_le k; omega
  unfold val_main_v7 val_main_call2_v1 val_main_call2_v0 val_main_c_1
  show IntOp.maxsi 0#32 (val_main_v5 (F := Ideal) (ix1 k)) = _
  rw [cs_at, maxsi_small ⟨cnt k.val, hc⟩]

/-- After the negative-index wrap: still the count. -/
theorem v12_at (k : Fin 1024) : val_main_v12 (F := Ideal) (ix1 k) = BitVec.ofNat 32 (cnt k.val) := by
  have hc : cnt k.val < 497 := by have := cnt_le k; omega
  unfold val_main_v12 val_main_v9 val_main_v11 val_main_v8 val_main_v10 val_main_c_2 val_main_c_3
  rw [select_apply]
  show Scalar.select (IntOp.cmpi .slt (val_main_v7 (F := Ideal) (ix1 k)) 0#32)
      (IntOp.addi (val_main_v7 (F := Ideal) (ix1 k)) 496#32) (val_main_v7 (F := Ideal) (ix1 k)) = _
  rw [v7_at, wrap_small ⟨cnt k.val, hc⟩]

/-- The scatter's index array at update `k`: the count. -/
theorem idx_at (k : Fin 1024) : val_main_v13 (F := Ideal) (ix2 k (0 : Fin 1)) = BitVec.ofNat 32 (cnt k.val) := by
  unfold val_main_v13
  rw [broadcastInDim_apply _ _ _ (ix2 k (0 : Fin 1)) (ix1 k)
    (by intro a; obtain rfl : a = 0 := Subsingleton.elim _ _; rfl)]
  exact v12_at k

/-! ## The bincount -/

/-- The start the scatter reads for update `k`: its index word, signed. -/
theorem start_at (idx : IVec S1024x1 32) (k : Fin 1024) (a : Fin S496.rank) :
    scatter_S496_S1024x1_S1024_n_0_0_1.start (ix1 k) idx a = (idx (ix2 k (0 : Fin 1))).toInt := by
  obtain rfl : a = 0 := Subsingleton.elim _ _
  unfold ScatterDims.start
  rw [dif_pos (show (0 : Fin 1) ∈ scatter_S496_S1024x1_S1024_n_0_0_1.scatterDimsToOperandDims from List.mem_singleton.mpr rfl)]
  congr 2
  funext b; refine Fin.ext ?_
  match b with
  | ⟨0, _⟩ => rfl
  | ⟨1, _⟩ => rfl

/-- The scatter has no window: the operand's one axis is inserted. -/
theorem window_at (k : Fin 1024) (a : Fin S496.rank) :
    scatter_S496_S1024x1_S1024_n_0_0_1.window (ix1 k) a = 0 := by
  obtain rfl : a = 0 := Subsingleton.elim _ _
  unfold ScatterDims.window
  rw [dif_neg (by decide)]

/-- Update `k` lands on entry `v` exactly when its index word, read signed, is `v`. -/
theorem resultIdx_iff (idx : IVec S1024x1 32) (k : Fin 1024) (v : Fin 496) :
    scatter_S496_S1024x1_S1024_n_0_0_1.resultIdx? (ix1 k) idx = some (ix1 v)
      ↔ (idx (ix2 k (0 : Fin 1))).toInt = (v.val : Int) := by
  unfold ScatterDims.resultIdx?
  have hv := v.isLt
  by_cases hc : 0 ≤ (idx (ix2 k (0 : Fin 1))).toInt ∧ (idx (ix2 k (0 : Fin 1))).toInt < 496
  · have H : ∀ a : Fin S496.rank,
        0 ≤ scatter_S496_S1024x1_S1024_n_0_0_1.start (ix1 k) idx a + scatter_S496_S1024x1_S1024_n_0_0_1.window (ix1 k) a
        ∧ scatter_S496_S1024x1_S1024_n_0_0_1.start (ix1 k) idx a + scatter_S496_S1024x1_S1024_n_0_0_1.window (ix1 k) a < S496.size a := by
      intro a
      rw [start_at, window_at]
      obtain rfl : a = 0 := Subsingleton.elim _ _
      show 0 ≤ _ + ((0 : Nat) : Int) ∧ _ + ((0 : Nat) : Int) < ((496 : Nat) : Int)
      omega
    rw [dif_pos H]
    constructor
    · intro h
      have h1 := congrFun (Option.some.inj h) 0
      have h2 := congrArg Fin.val h1
      have h3 : (scatter_S496_S1024x1_S1024_n_0_0_1.start (ix1 k) idx 0
          + scatter_S496_S1024x1_S1024_n_0_0_1.window (ix1 k) 0).toNat = v.val := h2
      rw [start_at, window_at] at h3
      omega
    · intro h
      congr 1
      funext a
      obtain rfl : a = 0 := Subsingleton.elim _ _
      apply Fin.ext
      show (scatter_S496_S1024x1_S1024_n_0_0_1.start (ix1 k) idx 0
          + scatter_S496_S1024x1_S1024_n_0_0_1.window (ix1 k) 0).toNat = v.val
      rw [start_at, window_at]
      omega
  · rw [dif_neg]
    · constructor
      · intro h; exact absurd h (by simp)
      · intro h; exact absurd ⟨by omega, by omega⟩ hc
    · intro H
      have h0 := H 0
      rw [start_at, window_at] at h0
      apply hc
      have h' : 0 ≤ (idx (ix2 k (0 : Fin 1))).toInt + ((0 : Nat) : Int)
          ∧ (idx (ix2 k (0 : Fin 1))).toInt + ((0 : Nat) : Int) < ((496 : Nat) : Int) := h0
      omega

/-- A count, read as a signed word, is itself. -/
theorem toInt_small : ∀ n : Fin 497, (BitVec.ofNat 32 n.val).toInt = (n.val : Int) := by decide

/-- The bincount's entry `v`: the number of flat positions whose count is `v`. -/
theorem v15_at (v : Fin 496) : val_main_v15 (F := Ideal) (ix1 v)
    = ((Finset.univ.filter (fun k : Fin 1024 => cnt k.val = v.val)).card : BitVec 32) := by
  show Host.scatter scatter_S496_S1024x1_S1024_n_0_0_1 IntOp.addi (val_main_v6 (F := Ideal)) (val_main_v13 (F := Ideal))
    (val_main_v14 (F := Ideal)) (ix1 v) = _
  rw [LibScatter.scatter_addi_apply]
  have h6 : val_main_v6 (F := Ideal) (ix1 v) = 0 := rfl
  rw [h6, zero_add, ← Equiv.sum_comp (LibCumsum.idxEquiv1 (n := 1024)).symm]
  have hterm : ∀ k : Fin 1024,
      (if scatter_S496_S1024x1_S1024_n_0_0_1.resultIdx? ((LibCumsum.idxEquiv1 (n := 1024)).symm k) (val_main_v13 (F := Ideal)) = some (ix1 v)
        then val_main_v14 (F := Ideal) ((LibCumsum.idxEquiv1 (n := 1024)).symm k) else 0)
      = if cnt k.val = v.val then (1 : BitVec 32) else 0 := by
    intro k
    have hc : cnt k.val < 497 := by have := cnt_le k; omega
    have hiff := resultIdx_iff (val_main_v13 (F := Ideal)) k v
    rw [idx_at, toInt_small ⟨cnt k.val, hc⟩] at hiff
    have hiff' : scatter_S496_S1024x1_S1024_n_0_0_1.resultIdx? (ix1 k) (val_main_v13 (F := Ideal)) = some (ix1 v) ↔ cnt k.val = v.val := by
      rw [hiff]; exact Nat.cast_inj
    show (if scatter_S496_S1024x1_S1024_n_0_0_1.resultIdx? (ix1 k) (val_main_v13 (F := Ideal)) = some (ix1 v) then (1#32) else 0) = _
    by_cases h : cnt k.val = v.val
    · rw [if_pos (hiff'.2 h), if_pos h]; rfl
    · rw [if_neg (fun h' => h (hiff'.1 h')), if_neg h]
  rw [Finset.sum_congr rfl (fun k _ => hterm k), Finset.sum_boole]

/-- The running sum of the bincount at `p`: the flat position 32 i + j of the pair (i, j) at place `p`. -/
theorem v16_at (p : Fin 496) : val_main_v16 (F := Ideal) (ix1 p) = BitVec.ofNat 32 (32 * rowOf p.val + colOf p.val) := by
  show Host.reduceWindow IntOp.addi ![496] ![1] ![495] ![0] (val_main_v15 (F := Ideal))
    (val_main_call3_call0_v0 (F := Ideal)) reduceWindows_S496_S496_w496s1p495_0 h_S_ (ix1 p) = _
  rw [LibCumsum.reduceWindow_cumsum 495 rfl _ _ _ _ rfl p]
  have hterm : ∀ v ∈ Finset.range (p.val + 1), LibCumsum.ext0 (val_main_v15 (F := Ideal)) v
      = ((Finset.univ.filter (fun k : Fin 1024 => cnt k.val = v)).card : BitVec 32) := by
    intro v hv
    have hv' : v < 496 := by rw [Finset.mem_range] at hv; have := p.isLt; omega
    exact (LibCumsum.ext0_val _ (⟨v, hv'⟩ : Fin 496)).trans (v15_at ⟨v, hv'⟩)
  rw [Finset.sum_congr rfl hterm, ← Nat.cast_sum, sum_card_fiber, card_cnt_le p]
  rfl

/-! ## Row and column out of the flat position -/

/-- The sign word of an integer word. -/
def sgn (z : BitVec 32) : BitVec 32 := if z = 0 then 0 else if z.msb then -1 else 1

/-- Floor division as the reference spells it: the quotient rounded toward zero, less one when the signs differ and
    the remainder is not zero. -/
def floorDiv (z d : BitVec 32) : BitVec 32 :=
  Scalar.select (IntOp.andi (IntOp.cmpi .ne (sgn z) (sgn d)) (IntOp.cmpi .ne (IntOp.remsi .host z d) 0#32))
    (IntOp.subi (IntOp.divsi .host z d) 1#32) (IntOp.divsi .host z d)

/-- The remainder of the divisor's sign as the reference spells it: a zero divisor replaced by one, the remainder of
    the dividend's sign, plus the divisor when the two signs differ and the remainder is not zero. -/
def pyRem (z d0 : BitVec 32) : BitVec 32 :=
  Scalar.select
    (IntOp.andi
      (IntOp.cmpi .ne (IntOp.cmpi .slt (IntOp.remsi .host z (Scalar.select (IntOp.cmpi .eq d0 0#32) 1#32 d0)) 0#32)
        (IntOp.cmpi .slt (Scalar.select (IntOp.cmpi .eq d0 0#32) 1#32 d0) 0#32))
      (IntOp.cmpi .ne (IntOp.remsi .host z (Scalar.select (IntOp.cmpi .eq d0 0#32) 1#32 d0)) 0#32))
    (IntOp.addi (IntOp.remsi .host z (Scalar.select (IntOp.cmpi .eq d0 0#32) 1#32 d0)) (Scalar.select (IntOp.cmpi .eq d0 0#32) 1#32 d0))
    (IntOp.remsi .host z (Scalar.select (IntOp.cmpi .eq d0 0#32) 1#32 d0))

/-- A negative index wrapped by the extent 32. -/
def wrap32 (z : BitVec 32) : BitVec 32 := Scalar.select (IntOp.cmpi .slt z 0#32) (IntOp.addi z 32#32) z

theorem v17_eq (p : Fin 496) : val_main_v17 (F := Ideal) (ix1 p) = floorDiv (val_main_v16 (F := Ideal) (ix1 p)) 32#32 := by
  unfold val_main_v17 val_main_call4_v10 val_main_call4_v12 val_main_call4_v1 val_main_call4_v5 val_main_call4_v9
    val_main_call4_v2 val_main_call4_v4 val_main_call4_v3 val_main_call4_v7 val_main_call4_v8 val_main_call4_v6
    val_main_call4_v0 val_main_call4_v11 val_main_call4_c val_main_call4_c_0 val_main_c_5
  rfl

theorem v18_eq (p : Fin 496) : val_main_v18 (F := Ideal) (ix1 p) = pyRem (val_main_v17 (F := Ideal) (ix1 p)) 32#32 := by
  unfold val_main_v18 val_main_call5_v12 val_main_call5_v14 val_main_call5_v4 val_main_call5_v11 val_main_call5_v6
    val_main_call5_v13 val_main_call5_v8 val_main_call5_v10 val_main_call5_v9 val_main_call5_v7 val_main_call5_v5
    val_main_call5_v3 val_main_call5_v2 val_main_call5_v1 val_main_call5_v0 val_main_call5_c val_main_call5_c_0
    val_main_call5_c_1 val_main_call5_c_2 val_main_call5_c_3 val_main_c_6
  rfl

theorem v19_eq (p : Fin 496) : val_main_v19 (F := Ideal) (ix1 p) = floorDiv (val_main_v16 (F := Ideal) (ix1 p)) 1#32 := by
  unfold val_main_v19 val_main_call6_v10 val_main_call6_v12 val_main_call6_v1 val_main_call6_v5 val_main_call6_v9
    val_main_call6_v2 val_main_call6_v4 val_main_call6_v3 val_main_call6_v7 val_main_call6_v8 val_main_call6_v6
    val_main_call6_v0 val_main_call6_v11 val_main_call6_c val_main_call6_c_0 val_main_c_7
  rfl

theorem v20_eq (p : Fin 496) : val_main_v20 (F := Ideal) (ix1 p) = pyRem (val_main_v19 (F := Ideal) (ix1 p)) 32#32 := by
  unfold val_main_v20 val_main_call7_v12 val_main_call7_v14 val_main_call7_v4 val_main_call7_v11 val_main_call7_v6
    val_main_call7_v13 val_main_call7_v8 val_main_call7_v10 val_main_call7_v9 val_main_call7_v7 val_main_call7_v5
    val_main_call7_v3 val_main_call7_v2 val_main_call7_v1 val_main_call7_v0 val_main_call7_c val_main_call7_c_0
    val_main_call7_c_1 val_main_call7_c_2 val_main_call7_c_3 val_main_c_8
  rfl

theorem v25_eq (p : Fin 496) : val_main_v25 (F := Ideal) (ix1 p) = wrap32 (val_main_v18 (F := Ideal) (ix1 p)) := by
  unfold val_main_v25 val_main_v22 val_main_v24 val_main_v21 val_main_v23 val_main_c_9 val_main_c_10
  rfl

theorem v30_eq (p : Fin 496) : val_main_v30 (F := Ideal) (ix1 p) = wrap32 (val_main_v20 (F := Ideal) (ix1 p)) := by
  unfold val_main_v30 val_main_v27 val_main_v29 val_main_v26 val_main_v28 val_main_c_11 val_main_c_12
  rfl

/-- On the flat position 32 i + j the two chains give back i and j. -/
theorem words_at : ∀ i j : Fin 32,
    wrap32 (pyRem (floorDiv (BitVec.ofNat 32 (32 * i.val + j.val)) 32#32) 32#32) = BitVec.ofNat 32 i.val
    ∧ wrap32 (pyRem (floorDiv (BitVec.ofNat 32 (32 * i.val + j.val)) 1#32) 32#32) = BitVec.ofNat 32 j.val := by
  decide

/-! ## The table -/

/-- THE INDEX TABLE: row `p` of the table the gather reads holds the pair at place `p` of the strict upper
    triangle listed row by row. -/
theorem val_main_v33_at (p : Fin 496) :
    RefOps.val_main_v33 (F := Ideal) (ix2 p (0 : Fin 2)) = BitVec.ofNat 32 (rowOf p.val)
    ∧ RefOps.val_main_v33 (F := Ideal) (ix2 p (1 : Fin 2)) = BitVec.ofNat 32 (colOf p.val) := by
  obtain ⟨h1, h2⟩ := rowOf_lt_colOf p
  have hw := words_at ⟨rowOf p.val, by omega⟩ ⟨colOf p.val, h2⟩
  constructor
  · show concatenate S496x2 1 [⟨S496x1, val_main_v31 (F := Ideal)⟩, ⟨S496x1, val_main_v32 (F := Ideal)⟩]
      concatenates_S496x1_S496x1_S496x2_d1 (ix2 p (0 : Fin 2)) = _
    rw [concatenate_pair_apply_left (t := S496x2) (s₁ := S496x1) (s₂ := S496x1) 1 _ _ _ (ix2 p (0 : Fin 2)) rfl (ix2 p (0 : Fin 1))
      (by intro b; match b with | ⟨0, _⟩ => rfl | ⟨1, _⟩ => rfl)]
    unfold val_main_v31
    rw [broadcastInDim_apply _ _ _ (ix2 p (0 : Fin 1)) (ix1 p)
      (by intro a; obtain rfl : a = 0 := Subsingleton.elim _ _; rfl),
      v25_eq, v18_eq, v17_eq, v16_at]
    exact hw.1
  · show concatenate S496x2 1 [⟨S496x1, val_main_v31 (F := Ideal)⟩, ⟨S496x1, val_main_v32 (F := Ideal)⟩]
      concatenates_S496x1_S496x1_S496x2_d1 (ix2 p (1 : Fin 2)) = _
    rw [concatenate_pair_apply_right (t := S496x2) (s₁ := S496x1) (s₂ := S496x1) 1 _ _ _ (ix2 p (1 : Fin 2)) rfl rfl (ix2 p (0 : Fin 1))
      (by intro b hb; match b, hb with | ⟨0, _⟩, _ => rfl | ⟨1, _⟩, hb => exact absurd rfl hb) rfl]
    unfold val_main_v32
    rw [broadcastInDim_apply _ _ _ (ix2 p (0 : Fin 1)) (ix1 p)
      (by intro a; obtain rfl : a = 0 := Subsingleton.elim _ _; rfl),
      v30_eq, v20_eq, v19_eq, v16_at]
    exact hw.2

end Cert.ReferenceIdeal.PairTable
end
-- ==== Proof.lean ====
/-
  Pairwise inner products of 32 fields, kernel against reference, over the extended reals.

  The argument x is a stack of 16384 matrices of 32 rows (fields) by 64 columns (embedding coordinates). Both programs
  return, per matrix, the 496 inner products ∑ e, x[b, i, e] · x[b, j, e] of the pairs of rows i < j, the pairs listed row
  by row: (0,1), …, (0,31), (1,2), …, (30,31) (`Cert.PairOrder.pairProducts`).

  * The kernel walks the stack in 32 blocks of 512 matrices. Per block the matrix unit multiplies the block with itself —
    the operands rounded to bf16 first, which is the identity over the extended reals — and 31 stores copy row i of each
    Gram matrix, right of the diagonal, to columns rowStart i … of the output block. Each store is a block of one function
    of the output index, the stores tile the block, and the 32 blocks tile the result (`KernelValue.run`).
  * The reference multiplies the whole stack with itself and gathers entry (iu[p], ju[p]) of every Gram matrix, the index
    pairs computed on the way from no input: the mask of the strict upper triangle, the positions of its set entries found
    by a running count, a count per value and a second running count, then quotient and remainder by 32. That table holds
    (rowOf p, colOf p) at row p (`PairTable.val_main_v33_at`), so the gather reads the same entries (`RefValue`).

  The two sides are the same sum term by term: no law of the extended reals beyond reading both products at an index is
  used, and the precondition (finite inputs) is never opened. Nothing is rewritten by the idealization, so `preserves`
  asks nothing. The three frames are the generated frame proofs of the two kernel programs and the reference's run with
  its result dropped.
-/
import proofs.«140735_j6227702579222_2_alg».proof.Defs
import proofs.«140735_j6227702579222_2_alg».proof.Proof.Gen.Kernel
import proofs.«140735_j6227702579222_2_alg».proof.Proof.Gen.Kernel.Skeleton
import proofs.«140735_j6227702579222_2_alg».proof.Proof.Gen.Kernel.Launch
import proofs.«140735_j6227702579222_2_alg».proof.Proof.Gen.Kernel.Points
import proofs.«140735_j6227702579222_2_alg».proof.Proof.Gen.Kernel.Frame
import proofs.«140735_j6227702579222_2_alg».proof.Proof.Gen.KernelIdeal
import proofs.«140735_j6227702579222_2_alg».proof.Proof.Gen.KernelIdeal.Skeleton
import proofs.«140735_j6227702579222_2_alg».proof.Proof.Gen.KernelIdeal.Launch
import proofs.«140735_j6227702579222_2_alg».proof.Proof.Gen.KernelIdeal.Points
import proofs.«140735_j6227702579222_2_alg».proof.Proof.Gen.KernelIdeal.Frame
import proofs.«140735_j6227702579222_2_alg».proof.Proof.Gen.KernelIdeal.Value
import proofs.«140735_j6227702579222_2_alg».proof.Proof.Gen.ReferenceIdeal
import proofs.«140735_j6227702579222_2_alg».proof.Proof.Gen.Pre_finite_inputs
import proofs.«140735_j6227702579222_2_alg».proof.Proof.KernelValue
import proofs.«140735_j6227702579222_2_alg».proof.Proof.RefRun
import proofs.«140735_j6227702579222_2_alg».proof.Proof.RefValue
import proofs.«140735_j6227702579222_2_alg».proof.Proof.PairTable
import Idealize.ShloMosaic.Adequacy
import Idealize.ShloMosaic.Init

noncomputable section

namespace Cert.Proof

open Idealize.ShloMosaic Idealize.SL.Sem Cert.PairOrder

theorem claim : Cert.Claim := ⟨Cert.Kernel.Gen.facts, Cert.KernelIdeal.Gen.facts, Cert.ReferenceIdeal.Gen.facts, Cert.Pre_finite_inputs.Gen.facts,
  -- the two kernel programs' frames, generated
  fun m ρ _ => Cert.Kernel.Gen.frame m ρ,
  fun m ρ _ => Cert.KernelIdeal.Gen.frame m ρ,
  -- the reference's frame: its run, the result dropped
  fun m ρ _ => (θ_run Cert.ReferenceIdeal.defs _ _).mono (fun _ h c => (h c).2) (Cert.ReferenceIdeal.RefRun.run (F := Ideal) m ρ),
  trivial,
  -- both runs end at the pairs' inner products of arguments that agree
  fun m ρ m' ρ' _ hagree => ⟨fun c => pairProducts (m ((c.tc : Thread Cert.KernelIdeal.nD Cert.KernelIdeal.τ).loc Cert.KernelIdeal.main_arg0)),
    Cert.KernelIdeal.KernelValue.run m ρ,
    (θ_run Cert.ReferenceIdeal.defs _ _).mono (fun _ h c =>
        ⟨((h c).1.trans (Cert.ReferenceIdeal.RefValue.result_eq_of_table Cert.ReferenceIdeal.PairTable.val_main_v33_at _)).trans
            (congrArg (pairProducts (n := 16384)) (hagree c)), (h c).2⟩)
      (Cert.ReferenceIdeal.RefRun.run (F := Ideal) m' ρ')⟩⟩

end Cert.Proof

end
